-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S262144 : Shape := ⟨1, ![262144]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S8192x2 .f32) (main_arg1 : FVec F S262144 .f32) (main_arg2 : IVec S262144 32) (main_arg3 : IVec S262144 32) : IVec S_ 1 :=
  let main_v0 : FVec F S8192x2 .f32 := Host.absf main_arg0
  let main_cst : FVec F S_ .f32 := constant S_ .f32 0x7F800000#32
  let main_v1 : FVec F S8192x2 .f32 := broadcastInDim S8192x2 ![] bcast_S_S8192x2 main_cst
  let main_v2 : IVec S8192x2 1 := cmpf .olt main_v0 main_v1
  let main_c : IVec S_ 1 := constantI S_ 1 1#1
  let main_v3 : IVec S_ 1 := (fun x v => Host.reduce IntOp.andi x v reducesTo_S8192x2_S_d0_1 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  main_v8
-- ==== Kernel.lean ====
abbrev S8192x2 : Shape := ⟨2, ![8192, 2]⟩
abbrev S262144 : Shape := ⟨1, ![262144]⟩
abbrev S1x1 : Shape := ⟨2, ![1, 1]⟩
abbrev S1024x2 : Shape := ⟨2, ![1024, 2]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1 : Shape := ⟨1, ![1]⟩
abbrev S_ : Shape := ⟨0, ![]⟩
abbrev S262144x1 : Shape := ⟨2, ![262144, 1]⟩
abbrev S262144x2 : Shape := ⟨2, ![262144, 2]⟩
abbrev S2x262144 : Shape := ⟨2, ![2, 262144]⟩
abbrev S1x262144 : Shape := ⟨2, ![1, 262144]⟩

abbrev nBuf : Space → Nat
  | .hbm => 31
  | .vmem => 10
  | .smem => 0
  | _ => 0

abbrev bufTy : (tb : Table) → Fin (tcTables nBuf tb) → BufTy
  | .hbm, ⟨0, _⟩ => ⟨S8192x2, .f32⟩
  | .hbm, ⟨1, _⟩ => ⟨S262144, .f32⟩
  | .hbm, ⟨2, _⟩ => ⟨S262144, .i32⟩
  | .hbm, ⟨3, _⟩ => ⟨S262144, .i32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S1x1, .f32⟩
  | .hbm, ⟨8, _⟩ => ⟨S_, .i32⟩
  | .hbm, ⟨9, _⟩ => ⟨S262144, .i32⟩
  | .hbm, ⟨10, _⟩ => ⟨S262144, .i1⟩
  | .hbm, ⟨11, _⟩ => ⟨S_, .i32⟩
  | .hbm, ⟨12, _⟩ => ⟨S262144, .i32⟩
  | .hbm, ⟨13, _⟩ => ⟨S262144, .i32⟩
  | .hbm, ⟨14, _⟩ => ⟨S262144, .i32⟩
  | .hbm, ⟨15, _⟩ => ⟨S262144x1, .i32⟩
  | .hbm, ⟨16, _⟩ => ⟨S262144x2, .f32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x2, .f32⟩
  | .hbm, ⟨26, _⟩ => ⟨S2x262144, .f32⟩
  | .hbm, ⟨27, _⟩ => ⟨S2x262144, .f32⟩
  | .hbm, ⟨28, _⟩ => ⟨S1x262144, .f32⟩
  | .hbm, ⟨29, _⟩ => ⟨S1x1, .f32⟩
  | .hbm, ⟨30, _⟩ => ⟨S_, .f32⟩
  | .local _ .vmem, ⟨0, _⟩ => ⟨S1024x2, .f32⟩
  | .local _ .vmem, ⟨1, _⟩ => ⟨S1024x2, .f32⟩
  | .local _ .vmem, ⟨2, _⟩ => ⟨S1024x2, .f32⟩
  | .local _ .vmem, ⟨3, _⟩ => ⟨S1024x2, .f32⟩
  | .local _ .vmem, ⟨4, _⟩ => ⟨S1x1, .f32⟩
  | .local _ .vmem, ⟨5, _⟩ => ⟨S2x262144, .f32⟩
  | .local _ .vmem, ⟨6, _⟩ => ⟨S2x262144, .f32⟩
  | .local _ .vmem, ⟨7, _⟩ => ⟨S1x262144, .f32⟩
  | .local _ .vmem, ⟨8, _⟩ => ⟨S1x1, .f32⟩
  | .local _ .vmem, ⟨9, _⟩ => ⟨S1x1, .f32⟩
  | _, _ => ⟨S8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x262144 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x262144 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x262144 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  inb_S1x1_S1x1_0_0 : ∀ a, (![0, 0] : Fin 2 → Nat) a + S1x1.size a ≤ S1x1.size a
  h_S1x1 : 0 < S1x1.numel
  inb_S1024x2_S1024x2_0_0 : ∀ a, (![0, 0] : Fin 2 → Nat) a + S1024x2.size a ≤ S1024x2.size a
  h_S1024x2 : 0 < S1024x2.numel
  reduces_S1024x2_S1024 : S1024x2.Reduces [1] S1024
  shapeCasts_S1024_S1024x1 : S1024.ShapeCasts S1024x1
  slices_S1024x2_o0_0_S1024x1 : S1024x2.Slices ![0, 0] S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  slices_S1024x2_o0_1_S1024x1 : S1024x2.Slices ![0, 1] S1024x1
  reduces_S1024x1024_S1024 : S1024x1024.Reduces [1] S1024
  reduces_S1024x1_S1 : S1024x1.Reduces [0] S1
  shapeCasts_S1_S1x1 : S1.ShapeCasts S1x1
  shapeCasts_S1x1_S1x1 : S1x1.ShapeCasts S1x1
  bcast_S_S1x1 : S_.BroadcastsInDim S1x1 (![] : Fin 0 → Fin S1x1.rank)
  bcast_S_S262144 : S_.BroadcastsInDim S262144 (![] : Fin 0 → Fin S262144.rank)
  bcast_S262144_S262144x1_0 : S262144.BroadcastsInDim S262144x1 (![0] : Fin 1 → Fin S262144x1.rank)
  transposes_S262144x2_S2x262144_1_0 : S262144x2.Transposes [1, 0] S2x262144
  shapeCasts_S262144_S1x262144 : S262144.ShapeCasts S1x262144
  inb_S2x262144_S2x262144_0_0 : ∀ a, (![0, 0] : Fin 2 → Nat) a + S2x262144.size a ≤ S2x262144.size a
  h_S2x262144 : 0 < S2x262144.numel
  shapeCasts_S2x262144_S2x262144 : S2x262144.ShapeCasts S2x262144
  reduces_S2x262144_S262144 : S2x262144.Reduces [0] S262144
  broadcasts_S1x1_S1x262144 : S1x1.Broadcasts S1x262144
  inb_S1x262144_S1x262144_0_0 : ∀ a, (![0, 0] : Fin 2 → Nat) a + S1x262144.size a ≤ S1x262144.size a
  h_S1x262144 : 0 < S1x262144.numel
  shapeCasts_S1x262144_S1x262144 : S1x262144.ShapeCasts S1x262144
  reduces_S1x262144_S1 : S1x262144.Reduces [1] S1
  shapeCasts_S1x1_S_ : S1x1.ShapeCasts S_
  gather_S8192x2_S262144x1_S262144x2_1_0_n_n_0_1_12_wf : GatherDims.WF S8192x2 S262144x1 S262144x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S8192x2.size a
  hwx0_0 : ∀ i : grid0.Coords, EltTy.bits .f32 = 32 ∨ (Rect.block (s := S8192x2) S1024x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2.size a ≤ S8192x2.size a
  hwx0_1 : ∀ i : grid0.Coords, EltTy.bits .f32 = 32 ∨ (Rect.block (s := S8192x2) S1024x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x262144.size a ≤ S2x262144.size a
  hwx1_0 : ∀ i : grid1.Coords, EltTy.bits .f32 = 32 ∨ (Rect.block (s := S2x262144) S2x262144.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x262144.size a ≤ S2x262144.size a
  hwx1_1 : ∀ i : grid1.Coords, EltTy.bits .f32 = 32 ∨ (Rect.block (s := S2x262144) S2x262144.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x262144.size a ≤ S1x262144.size a
  hwx1_2 : ∀ i : grid1.Coords, EltTy.bits .f32 = 32 ∨ (Rect.block (s := S1x262144) S1x262144.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def gather_S8192x2_S262144x1_S262144x2_1_0_n_n_0_1_12 : GatherDims S8192x2 S262144x1 S262144x2 where
  offsetDims := [1]
  collapsedSliceDims := [0]
  operandBatchingDims := []
  startIndicesBatchingDims := []
  startIndexMap := [0]
  indexVectorDim := 1
  sliceSizes := ![1, 2]
  wf := gather_S8192x2_S262144x1_S262144x2_1_0_n_n_0_1_12_wf

abbrev win0_0 : Pipeline.Window sig grid0 :=
  Pipeline.Window.ofSpec (Memref.whole main_arg0) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S2x262144.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2x262144.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x262144.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x2 : Shape := ⟨2, ![8192, 2]⟩
abbrev S262144 : Shape := ⟨1, ![262144]⟩
abbrev S_ : Shape := ⟨0, ![]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x8192 : Shape := ⟨2, ![2, 8192]⟩

abbrev nBuf : Space → Nat
  | .hbm => 64
  | .vmem => 0
  | .smem => 0
  | _ => 0

abbrev bufTy : (tb : Table) → Fin (tcTables nBuf tb) → BufTy
  | .hbm, ⟨0, _⟩ => ⟨S8192x2, .f32⟩
  | .hbm, ⟨1, _⟩ => ⟨S262144, .f32⟩
  | .hbm, ⟨2, _⟩ => ⟨S262144, .i32⟩
  | .hbm, ⟨3, _⟩ => ⟨S262144, .i32⟩
  | .hbm, ⟨4, _⟩ => ⟨S_, .i32⟩
  | .hbm, ⟨5, _⟩ => ⟨S262144, .i32⟩
  | .hbm, ⟨6, _⟩ => ⟨S262144, .i1⟩
  | .hbm, ⟨7, _⟩ => ⟨S_, .i32⟩
  | .hbm, ⟨8, _⟩ => ⟨S262144, .i32⟩
  | .hbm, ⟨9, _⟩ => ⟨S262144, .i32⟩
  | .hbm, ⟨10, _⟩ => ⟨S262144, .i32⟩
  | .hbm, ⟨11, _⟩ => ⟨S262144x1, .i32⟩
  | .hbm, ⟨12, _⟩ => ⟨S262144x2, .f32⟩
  | .hbm, ⟨13, _⟩ => ⟨S_, .i32⟩
  | .hbm, ⟨14, _⟩ => ⟨S262144, .i32⟩
  | .hbm, ⟨15, _⟩ => ⟨S262144, .i1⟩
  | .hbm, ⟨16, _⟩ => ⟨S_, .i32⟩
  | .hbm, ⟨17, _⟩ => ⟨S262144, .i32⟩
  | .hbm, ⟨18, _⟩ => ⟨S262144, .i32⟩
  | .hbm, ⟨19, _⟩ => ⟨S262144, .i32⟩
  | .hbm, ⟨20, _⟩ => ⟨S262144x1, .i32⟩
  | .hbm, ⟨21, _⟩ => ⟨S262144x2, .f32⟩
  | .hbm, ⟨22, _⟩ => ⟨S262144x2, .f32⟩
  | .hbm, ⟨23, _⟩ => ⟨S262144x2, .f32⟩
  | .hbm, ⟨24, _⟩ => ⟨S_, .f32⟩
  | .hbm, ⟨25, _⟩ => ⟨S262144, .f32⟩
  | .hbm, ⟨26, _⟩ => ⟨S_, .f32⟩
  | .hbm, ⟨27, _⟩ => ⟨S262144, .f32⟩
  | .hbm, ⟨28, _⟩ => ⟨S262144, .f32⟩
  | .hbm, ⟨29, _⟩ => ⟨S_, .f32⟩
  | .hbm, ⟨30, _⟩ => ⟨S262144, .f32⟩
  | .hbm, ⟨31, _⟩ => ⟨S262144, .f32⟩
  | .hbm, ⟨32, _⟩ => ⟨S8192x2, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S1x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S2x8192, .f32⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S262144, .f32⟩
  | .hbm, ⟨57, _⟩ => ⟨S262144, .f32⟩
  | .hbm, ⟨58, _⟩ => ⟨S262144, .f32⟩
  | .hbm, ⟨59, _⟩ => ⟨S262144, .f32⟩
  | .hbm, ⟨60, _⟩ => ⟨S262144, .f32⟩
  | .hbm, ⟨61, _⟩ => ⟨S262144, .f32⟩
  | .hbm, ⟨62, _⟩ => ⟨S_, .f32⟩
  | .hbm, ⟨63, _⟩ => ⟨S_, .f32⟩
  | _, _ => ⟨S8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  reducesTo_S262144x2_S262144_d1 : S262144x2.ReducesTo [1] S262144
  h_S_ : 0 < S_.numel
  reducesTo_S8192x2_S8192_d1 : S8192x2.ReducesTo [1] S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x2_S2x8192_1_0 : S8192x2.Transposes [1, 0] S2x8192
  bcast_S_S8192x8192 : S_.BroadcastsInDim S8192x8192 (![] : Fin 0 → Fin S8192x8192.rank)
  reducesTo_S8192x8192_S_d0_1 : S8192x8192.ReducesTo [0, 1] S_
  reducesTo_S262144_S_d0 : S262144.ReducesTo [0] S_
  gather_S8192x2_S262144x1_S262144x2_1_0_n_n_0_1_12_wf : GatherDims.WF S8192x2 S262144x1 S262144x2 [1] [0] [] [0] [] 1 ![1, 2]
  dot_S8192x2_S2x8192_S8192x8192_1_0_0_1_n_n_wf : DotDims.WF S8192x2 S2x8192 S8192x8192 [1] [0] [0] [1] [] []

variable [Facts₀]

def gather_S8192x2_S262144x1_S262144x2_1_0_n_n_0_1_12 : GatherDims S8192x2 S262144x1 S262144x2 where
  offsetDims := [1]
  collapsedSliceDims := [0]
  operandBatchingDims := []
  startIndicesBatchingDims := []
  startIndexMap := [0]
  indexVectorDim := 1
  sliceSizes := ![1, 2]
  wf := gather_S8192x2_S262144x1_S262144x2_1_0_n_n_0_1_12_wf
def dot_S8192x2_S2x8192_S8192x8192_1_0_0_1_n_n : DotDims S8192x2 S2x8192 S8192x8192 where
  lhsContracting := [1]
  rhsContracting := [0]
  lhsNonContracting := [0]
  rhsNonContracting := [1]
  lhsBatch := []
  rhsBatch := []
  wf := dot_S8192x2_S2x8192_S8192x8192_1_0_0_1_n_n_wf

class Facts : Prop extends Facts₀ where

variable [Facts]
-- ==== Proof.K.DenomRuns.lean ====
/-
  The first pass (the pairwise sum) as one region of the program: what its two per-case runs share.

  The region's grid is 8 x 8.  Window 0 brings in the row block of the point's first coordinate, window 1 the
  row block of its second coordinate, both of the one coordinate array; window 2 is the resident [1, 1] tile
  the partial sums are added into.  The body has two cases: at the first point it zeroes the tile before adding,
  at every later point it adds into what the point before left.
-/
import proofs.«127132_j4990751998273_1_alg».proof.Proof.Gen.Kernel.Launch
import proofs.«127132_j4990751998273_1_alg».proof.Proof.Gen.Kernel.Skeleton
import proofs.«127132_j4990751998273_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section DenomRuns

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array as the region finds it at every point,
    fetched there or not (unfetched, its block index has not moved), for any proof data whose array is that one and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array as the region finds it at every point,
    fetched there or not (unfetched, its block index has not moved), for any proof data whose array is that one and
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end DenomRuns

/-! ## The body's one condition -/

/-- "Both grid coordinates are zero", as the body computes it. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The point's two coordinates: the grid is walked row by row. -/
theorem coords0 : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-! ## The staging memrefs as the pipeline passes them -/

/-- One staging buffer of the result window, through which its contents are stated. -/
abbrev VO0_2 : View sig .tc .vmem S1x1 .f32 := (Memref.whole cc0_stg2_0 : Memref sig .tc .vmem S1x1 .f32).view
abbrev ms0_0 (t : Fin cfg0.N) : Memref sig .tc .vmem S1024x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)

end Cert.Kernel.Frame

end
-- ==== Proof.K.DenomRunA.lean ====
/-
  The first pass's body run in one of its two cases: the first grid point, where the tile is zeroed and then added into.
-/
import proofs.«127132_j4990751998273_1_alg».proof.Proof.K.DenomRuns

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result tile's staging memref, as pieces (last first), with the proof that on
    whole staging memrefs — the two inputs' at their contents, the tile's at anything — the body runs to the
    continuation holding the inputs as they were and the tile with those pieces written. -/
noncomputable def kernelRun0_A (c : Dev nD) (i : grid0.Coords)
    (arg2 : Memref sig .tc .vmem S1024x2 .f32) (harg2 : arg2.IsWhole) (arg3 : Memref sig .tc .vmem S1024x2 .f32) (harg3 : arg3.IsWhole)
    (arg4 : Memref sig .tc .vmem S1x1 .f32) (harg4 : arg4.IsWhole) (hc0 : cond0_0 i)
    (x0 x1 : Vec F S1024x2 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__denom_kernel i arg2 harg2 arg3 harg3 arg4 harg4) K } := by
  refine ⟨?_, fun E K => ?run⟩
  case run =>
    simp only [cc0__denom_kernel_eq_skeleton]; unfold cc0__denom_kernel_skel
    simp only [k0_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Frame

end
-- ==== Proof.K.DenomRunB.lean ====
/-
  The first pass's body run in one of its two cases: every later grid point, where the tile is added into as the point before left it.
-/
import proofs.«127132_j4990751998273_1_alg».proof.Proof.K.DenomRunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result tile's staging memref, as pieces (last first), with the proof that on
    whole staging memrefs — the two inputs' at their contents, the tile's at its running contents — the body runs to the
    continuation holding the inputs as they were and the tile with those pieces written. -/
noncomputable def kernelRun0_B (c : Dev nD) (i : grid0.Coords)
    (arg2 : Memref sig .tc .vmem S1024x2 .f32) (harg2 : arg2.IsWhole) (arg3 : Memref sig .tc .vmem S1024x2 .f32) (harg3 : arg3.IsWhole)
    (arg4 : Memref sig .tc .vmem S1x1 .f32) (harg4 : arg4.IsWhole) (hc0 : ¬cond0_0 i)
    (x0 x1 : Vec F S1024x2 .f32) (xo2 : Vec F S1x1 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__denom_kernel i arg2 harg2 arg3 harg3 arg4 harg4) K } := by
  refine ⟨?_, fun E K => ?run⟩
  case run =>
    simp only [cc0__denom_kernel_eq_skeleton]; unfold cc0__denom_kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Frame

end
-- ==== Proof.K.DenomRegion.lean ====
/-
  The first pass as one region: what the resident tile holds after each grid point, the region's proof data,
  and the body obligation.

  At the first point the tile ends at what the zeroing case leaves of the two input blocks; at each later point at
  what the adding case leaves of the two input blocks and of the tile as the point before left it (the tile is
  written back only after the last point, so between points its staging buffer is untouched).  The one coordinate
  array is read through two windows: each holds it at one half of the full share.
-/
import proofs.«127132_j4990751998273_1_alg».proof.Proof.K.DenomRunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section DenomRegion

variable (V : (c : Dev nD) → (b : Ref sig .tc) → Buf (Elt F) ((c : Thread nD τ).loc b))

/-- The zeroing case's pieces tile the [1, 1] tile, so they cover it. -/
theorem cover0_A_2 (c : Dev nD) (i : grid0.Coords) (arg2 : Memref sig .tc .vmem S1024x2 .f32) (harg2 : arg2.IsWhole)
    (arg3 : Memref sig .tc .vmem S1024x2 .f32) (harg3 : arg3.IsWhole) (arg4 : Memref sig .tc .vmem S1x1 .f32) (harg4 : arg4.IsWhole)
    (hc0 : cond0_0 i) (x0 x1 : Vec F S1024x2 .f32) (y : S1x1.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x1.size (by sl_kernel_rfl) y

/-- What the zeroing case leaves in the tile. -/
def out0_A_2 (c : Dev nD) (i : grid0.Coords) (arg2 : Memref sig .tc .vmem S1024x2 .f32) (harg2 : arg2.IsWhole)
    (arg3 : Memref sig .tc .vmem S1024x2 .f32) (harg3 : arg3.IsWhole) (arg4 : Memref sig .tc .vmem S1x1 .f32) (harg4 : arg4.IsWhole)
    (hc0 : cond0_0 i) (x0 x1 : Vec F S1024x2 .f32) : Vec F S1x1 .f32 :=
  VO0_2.read (Elt F) (VO0_2.writes (Elt F) VO0_2.junk (kernelRun0_A c i arg2 harg2 arg3 harg3 arg4 harg4 hc0 x0 x1).1)

/-- The adding case's pieces tile the tile, so they cover it. -/
theorem cover0_B_2 (c : Dev nD) (i : grid0.Coords) (arg2 : Memref sig .tc .vmem S1024x2 .f32) (harg2 : arg2.IsWhole)
    (arg3 : Memref sig .tc .vmem S1024x2 .f32) (harg3 : arg3.IsWhole) (arg4 : Memref sig .tc .vmem S1x1 .f32) (harg4 : arg4.IsWhole)
    (hc0 : ¬cond0_0 i) (x0 x1 : Vec F S1024x2 .f32) (xo2 : Vec F S1x1 .f32) (y : S1x1.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x1.size (by sl_kernel_rfl) y

/-- What the adding case leaves in the tile, over its running contents `xo2`. -/
def out0_B_2 (c : Dev nD) (i : grid0.Coords) (arg2 : Memref sig .tc .vmem S1024x2 .f32) (harg2 : arg2.IsWhole)
    (arg3 : Memref sig .tc .vmem S1024x2 .f32) (harg3 : arg3.IsWhole) (arg4 : Memref sig .tc .vmem S1x1 .f32) (harg4 : arg4.IsWhole)
    (hc0 : ¬cond0_0 i) (x0 x1 : Vec F S1024x2 .f32) (xo2 : Vec F S1x1 .f32) : Vec F S1x1 .f32 :=
  VO0_2.read (Elt F) (VO0_2.writes (Elt F) VO0_2.junk (kernelRun0_B c i arg2 harg2 arg3 harg3 arg4 harg4 hc0 x0 x1 xo2).1)

/-! ## What the tile holds after each point -/

/-- THE ACCUMULATION: after the first point what the zeroing case leaves of that point's blocks; after point
    `n + 1` what the adding case leaves of that point's blocks over what point `n` left. -/
def outsAt0 (c : Dev nD) : (n : ℕ) → n < cfg0.N → Vec F S1x1 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((hcond0_0 ⟨0, hn⟩).mpr rfl) (iblk0 V c 0 ⟨0, hn⟩) (iblk0 V c 1 ⟨0, hn⟩)
  | n + 1, hn => out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
      (fun h => Nat.succ_ne_zero n ((hcond0_0 ⟨n + 1, hn⟩).mp h)) (iblk0 V c 0 ⟨n + 1, hn⟩) (iblk0 V c 1 ⟨n + 1, hn⟩) (outsAt0 c n (Nat.lt_of_succ_lt hn))

/-- At the first point. -/
theorem outsAt0_A (c : Dev nD) (t : Fin cfg0.N) (h0 : t.val = 0) :
    outsAt0 V c t.val t.isLt = out0_A_2 c (grid0.coords t) (ms0_0 t) (hs0_0 t) (ms0_1 t) (hs0_1 t) (ms0_2 t) (hs0_2 t) ((hcond0_0 t).mpr h0) (iblk0 V c 0 t) (iblk0 V c 1 t) := by
  obtain ⟨n, hn⟩ := t
  cases n with
  | zero => exact rfl
  | succ n => exact absurd h0 (Nat.succ_ne_zero n)

/-- At a later point. -/
theorem outsAt0_B (c : Dev nD) (t : Fin cfg0.N) (h0 : ¬t.val = 0) :
    outsAt0 V c t.val t.isLt = out0_B_2 c (grid0.coords t) (ms0_0 t) (hs0_0 t) (ms0_1 t) (hs0_1 t) (ms0_2 t) (hs0_2 t) (fun h => h0 ((hcond0_0 t).mp h)) (iblk0 V c 0 t) (iblk0 V c 1 t)
      (outsAt0 V c (t.val - 1) (Nat.lt_of_le_of_lt (Nat.sub_le _ _) t.isLt)) := by
  obtain ⟨n, hn⟩ := t
  cases n with
  | zero => exact absurd rfl h0
  | succ n => exact rfl

/-! ## The region's proof data -/

/-- The arrays as the region finds them; after the body each input's buffer at its block and the tile at the
    accumulation; the scoped rest and the generator register untouched; nothing owed; the coordinate array's full
    share dealt in halves to the two windows that read it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- At a later point the tile's staging buffer holds what the body left at the point before: the point is not the
    first, the buffer was not written back between, the window is live and uncut. -/
theorem before0_2_B (c : Dev nD) (t : Fin cfg0.N) (h0 : ¬t.val = 0) (d) :
    (dat0 V c).before 2 t d = outsAt0 V c (t.val - 1) (Nat.lt_of_le_of_lt (Nat.sub_le _ _) t.isLt) := by
  have hN : t.val < 64 := lt_of_lt_of_eq t.isLt (show cfg0.N = 64 from N_0)
  rw [Dat.before_out_kept _ 2 rfl t h0 (Bool.eq_false_iff.mpr fun h => by have := (flush0_2 _).mp h; dsimp only at this; omega)
    (fun _ => rfl) (fun _ _ => rfl)]
  dsimp only [dat0]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 2000000 in
/-- The body at any point: the inputs' memrefs hold their blocks; the point is the first or a later one; at a later
    one the tile holds what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · rw [outsAt0_A V c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B V c t h0]
    simp only [before0_2_B V c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end DenomRegion

end Cert.Kernel.Frame

end
-- ==== Proof.K.SharedArray.lean ====
/-
  The one coordinate array behind two windows: dealing its full share between them and gathering it back.

  The first pass reads the coordinate array through two windows.  The buffers behind the pass's arrays are two
  (the coordinate array and the result), each held whole at the full share; the pass's windows are three.  The
  first two windows take the two halves of the coordinate array's full share at the same contents, the third the
  result at the full share; read backwards, the halves join to the full share again.
-/
import proofs.«127132_j4990751998273_1_alg».proof.Proof.K.DenomRegion

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section SharedArray

variable (V : (c : Dev nD) → (b : Ref sig .tc) → Buf (Elt F) ((c : Thread nD τ).loc b))

/-- The buffers behind the windows' arrays: the coordinate array and the result. -/
theorem arrRefs0 : Finset.univ.image (Pipeline.arrRef spec0) = {main_arg0, main_v0} := by decide

/-- The first pass's arrays at contents `A`, the windows one by one. -/
theorem arrays0_eq (c : Dev nD) (A : (w : Fin cfg0.W) → Buf (Elt F) ((cfg0.win w).arr.view.loc (c.tc : Thread nD τ))) :
    ((dat0 V c).arrays A : sProp 𝕄)
      = iprop((((c : Thread nD τ).loc main_arg0) ↦{fullShare.left} A 0) ∗ (((c : Thread nD τ).loc main_arg0) ↦{fullShare.right} A 1)
          ∗ (((c : Thread nD τ).loc main_v0) ↦{fullShare} A 2)) := by
  unfold Dat.arrays
  rw [bigSep_W0, (arr_whole0 0).set_eq_univ, (arr_whole0 2).set_eq_univ]
  rfl

/-- The buffers behind the arrays at contents `G`, one by one. -/
theorem arrBufs0_eq (c : Dev nD) (G : (b : Ref sig .tc) → Buf (Elt F) ((c : Thread nD τ).loc b)) :
    (Pipeline.arrBufs spec0 c G : sProp 𝕄)
      = iprop((((c : Thread nD τ).loc main_arg0) ↦{fullShare} G main_arg0) ∗ (((c : Thread nD τ).loc main_v0) ↦{fullShare} G main_v0)) := by
  unfold Pipeline.arrBufs
  rw [arrRefs0, bigSep_insert (by decide), bigSep_singleton]
  rfl

/-- Dealing: the two buffers whole at `G` are the three windows' arrays at `G`. -/
theorem deal0 (c : Dev nD) (G : (b : Ref sig .tc) → Buf (Elt F) ((c : Thread nD τ).loc b)) :
    (Pipeline.arrBufs spec0 c G : sProp 𝕄) ⊢ (dat0 V c).arrays (fun w => G (Pipeline.arrRef spec0 w)) := by
  rw [arrBufs0_eq, arrays0_eq]
  iintro ⟨Ha, Hv⟩
  ihave Hs := (pointsTo_share (PosShare.mem_left_op_right fullShare)).1 $$ Ha
  icases Hs with ⟨Hl, Hr⟩
  isplitl [Hl]; · iexact Hl
  isplitl [Hr]; · iexact Hr
  iexact Hv

/-- Gathering: the three windows' arrays at `G` are the two buffers whole at `G`. -/
theorem gather0 (c : Dev nD) (G : (b : Ref sig .tc) → Buf (Elt F) ((c : Thread nD τ).loc b)) :
    (dat0 V c).arrays (fun w => G (Pipeline.arrRef spec0 w)) ⊢ (Pipeline.arrBufs spec0 c G : sProp 𝕄) := by
  rw [arrBufs0_eq, arrays0_eq]
  iintro ⟨Hl, Hr, Hv⟩
  isplitl [Hl Hr]
  · iapply (pointsTo_share (PosShare.mem_left_op_right fullShare)).2
    isplitl [Hl]; · iexact Hl
    iexact Hr
  iexact Hv

end SharedArray

end Cert.Kernel.Frame

end
-- ==== Proof.K.LossRegion.lean ====
/-
  The second pass (the loss) as one region of the program, at the contents `V` its buffers hold when it is entered.

  The region has one grid point.  Four input windows bring in, whole, the two gathered and transposed
  coordinate arrays [2, P], the probabilities [1, P] and the [1, 1] denominator; the fifth window is the
  [1, 1] result.  The body loads the four inputs, computes one value from them (the skeleton's `k1_pay1`) and
  stores it over the whole result tile; nothing is carried between points, so what the result tile holds
  after the body is that value of the four input blocks.
-/
import proofs.«127132_j4990751998273_1_alg».proof.Proof.Gen.Kernel.Launch
import proofs.«127132_j4990751998273_1_alg».proof.Proof.Gen.Kernel.Skeleton
import proofs.«127132_j4990751998273_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section LossRegion

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 is fetched at the region's one point, whole and uncut: its staging buffer holds its block of
    the array as the region finds it, for any proof data whose array is that one and whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 is fetched at the region's one point, whole and uncut: its staging buffer holds its block of
    the array as the region finds it, for any proof data whose array is that one and whose body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 is fetched at the region's one point, whole and uncut: its staging buffer holds its block of
    the array as the region finds it, for any proof data whose array is that one and whose body leaves it in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 is fetched at the region's one point, whole and uncut: its staging buffer holds its block of
    the array as the region finds it, for any proof data whose array is that one and whose body leaves it in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its tile -/

abbrev rA1 : Rect S2x262144 := Rect.unit (s := S2x262144) ![0, 0] S2x262144.size inb_S2x262144_S2x262144_0_0
abbrev rP1 : Rect S1x262144 := Rect.unit (s := S1x262144) ![0, 0] S1x262144.size inb_S1x262144_S1x262144_0_0
abbrev rO1 : Rect S1x1 := Rect.unit (s := S1x1) ![0, 0] S1x1.size inb_S1x1_S1x1_0_0

/-- The result tile after the body: its one store, of the loss of the four input blocks. -/
def out1_4 (x0 x1 : Vec F S2x262144 .f32) (x2 : Vec F S1x262144 .f32) (x3 : Vec F S1x1 .f32) : Vec F S1x1 .f32 :=
  View.canon [⟨rO1, k1_pay1 (View.ld x0 rA1) (View.ld x1 rA1) (View.ld x3 rO1) (View.ld x2 rP1)⟩]

/-- That store covers the tile. -/
theorem cover1_4 (p0 : Vec F S1x1 .f32) (y : S1x1.Idx) :
    ∃ pc ∈ ([⟨rO1, p0⟩] : List (View.Piece (Elt F) S1x1 .f32)), y ∈ pc.1.set :=
  View.cover_of_tiled [⟨rO1, p0⟩] S1x1.size (by rfl) y

set_option maxHeartbeats 2000000 in
/-- The body on whole staging memrefs: the inputs' at contents `x0 … x3`, the result's at anything; it runs to the
    continuation holding the inputs as they were and the result tile at `out1_4` of them. -/
theorem sound_kernel1 (c : Dev nD) (E : Set ℕ) (i : grid1.Coords)
    (arg1 : Memref sig .tc .vmem S2x262144 .f32) (harg1 : arg1.IsWhole) (arg2 : Memref sig .tc .vmem S2x262144 .f32) (harg2 : arg2.IsWhole)
    (arg3 : Memref sig .tc .vmem S1x262144 .f32) (harg3 : arg3.IsWhole) (arg4 : Memref sig .tc .vmem S1x1 .f32) (harg4 : arg4.IsWhole)
    (arg5 : Memref sig .tc .vmem S1x1 .f32) (harg5 : arg5.IsWhole)
    (x0 x1 : Vec F S2x262144 .f32) (x2 : Vec F S1x262144 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__loss_kernel i arg1 harg1 arg2 harg2 arg3 harg3 arg4 harg4 arg5 harg5) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The region's proof data -/

/-- The arrays as the region finds them; after the body each input's buffer at its block and the result's at
    `out1_4` of the input blocks; the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at the point: the inputs' memrefs hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end LossRegion

end Cert.Kernel.Frame

end
-- ==== Proof.K.MainRun.lean ====
/-
  The whole program's run.

  The program is four items in a row: the first pass (a region), a stretch of host lines (subtracting the pair
  count, gathering and transposing the sampled rows), the second pass (a region), and one host line reshaping
  the [1, 1] result to a scalar.  Between items every unscoped buffer of the core is held whole at known
  contents: the launch memory, then the same with the first pass's result tile at what its last write-back
  leaves, then the fold of the host lines over that, then the same with the second pass's result, then the fold
  of the last line.  Each region takes its arrays out of those buffers on entry and puts them back on exit; the
  first pass's coordinate array goes to its two windows in halves and comes back whole.  The run ends with every
  unscoped buffer at the last contents, from which both the unchanged arguments and the result are read.
-/
import proofs.«127132_j4990751998273_1_alg».proof.Proof.K.SharedArray
import proofs.«127132_j4990751998273_1_alg».proof.Proof.K.LossRegion
import proofs.«127132_j4990751998273_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section MainRun

variable (m : (ℓ : Loc nD τ sig) → Buf (Elt F) ℓ) (ρ : Dev nD → PrngReg)

/-! ## The buffers' contents between items -/

/-- Core `c`'s buffers at launch: the first pass's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At the first pass's exit: the result tile's array at what the write-backs leave, every other buffer as entered. -/
def W1 (c : Dev nD) : Valuation τ sig (Elt F) :=
  Function.update (W0 m ρ c) (Proc.devRef .tc main_v0) ((dat0 (V0 m ρ) c).arrAt 2 cfg0.N)
theorem W1_v0 (c : Dev nD) : W1 m ρ c (Proc.devRef .tc main_v0) = (dat0 (V0 m ρ) c).arrAt 2 cfg0.N := by
  unfold W1; exact Function.update_self _ _ _
theorem W1_of_ne (c : Dev nD) (b : Ref sig .tc) (hb : b ≠ main_v0) :
    W1 m ρ c (Proc.devRef .tc b) = W0 m ρ c (Proc.devRef .tc b) := by
  unfold W1; exact Function.update_of_ne (StableHlo.devRef_ne_of_ne hb) _ _
abbrev V1 : (c : Dev nD) → (b : Ref sig .tc) → Buf (Elt F) ((c : Thread nD τ).loc b) := fun c b => W1 m ρ c b

/-- Each of the first pass's arrays at its exit contents, -/
theorem hF0 (c : Dev nD) : ∀ w : Fin cfg0.W, (dat0 (V0 m ρ) c).arrAt w cfg0.N = V1 m ρ c (Pipeline.arrRef spec0 w)
  | ⟨0, _⟩ => (((dat0 (V0 m ρ) c).arrAt_in 0 rfl _).trans (A_eq0 (V0 m ρ) c 0)).trans (W1_of_ne m ρ c main_arg0 (by decide)).symm
  | ⟨1, _⟩ => (((dat0 (V0 m ρ) c).arrAt_in 1 rfl _).trans (A_eq0 (V0 m ρ) c 1)).trans (W1_of_ne m ρ c main_arg0 (by decide)).symm
  | ⟨2, _⟩ => (W1_v0 m ρ c).symm
/-- and every other buffer as entered. -/
theorem hrest0 (c : Dev nD) : ∀ b, b ∉ Finset.univ.image (Pipeline.arrRef spec0) → V1 m ρ c b = V0 m ρ c b :=
  fun b hb => W1_of_ne m ρ c b fun e => hb (e ▸ (by decide : main_v0 ∈ Finset.univ.image (Pipeline.arrRef spec0)))

/-- After the host lines between the passes: the second pass's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At the second pass's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host line: the program's end. -/
abbrev W4 : Dev nD → Valuation τ sig (Elt F) := fun c => StableHlo.after hostOps2 (W3 m ρ c)

/-! ## The proof data family and the thread state -/

abbrev adm' : (p : Fin 2) → (pcfgs (F := F) p).Adm := fun p => (cfgs p).toPCfg_adm
/-- Each pass's proof data at its entry contents. -/
def pdats : (p : Fin 2) → (c : Dev nD) → Dat τ (Elt F) Unit ℕ (UR sig nD τ) ℕ (Pipeline.pin (pcfgs (F := F)) adm' p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as an item over the unscoped buffers from contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W4 m ρ c) ∗ ∃ r, prngReg c r)

/-! ## The two passes as items -/

set_option backward.isDefEq.respectTransparency.types false in
/-- THE FIRST PASS over the thread state: entered from every unscoped buffer at the launch contents, left at `W1`. -/
def reg0 : Pipeline.RegionSeg (pcfgs (F := F)) adm' (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit : (unscopedBufs (Ix := Unit) (Name := ℕ) (U := UR sig nD τ) (Lvl := ℕ) c (V0 m ρ c) : sProp 𝕄)
        ⊢ iprop((pdats m ρ 0 c).arrays ((pdats m ρ 0 c).arrAt · 0)
            ∗ Pipeline.unscopedRest (Ix := Unit) (Name := ℕ) (U := UR sig nD τ) (Lvl := ℕ) spec0 c (V0 m ρ c)) := by
      rw [Pipeline.unscopedBufs_split₀ cfgs 0 winFacts₀0.arr_unscoped c (V0 m ρ c)]
      exact sep_mono (deal0 (V0 m ρ) c (V0 m ρ c)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
          ∗ Pipeline.unscopedRest (Ix := Unit) (Name := ℕ) (U := UR sig nD τ) (Lvl := ℕ) spec0 c (V0 m ρ c))
        ⊢ (unscopedBufs (Ix := Unit) (Name := ℕ) (U := UR sig nD τ) (Lvl := ℕ) c (V1 m ρ c) : sProp 𝕄) := by
      rw [Pipeline.unscopedBufs_split₀ cfgs 0 winFacts₀0.arr_unscoped c (V1 m ρ c)]
      refine sep_mono ?_ (Entails.of_eq ?_)
      · rw [show ((pdats m ρ 0 c).arrAt · cfg0.N) = (fun w => V1 m ρ c (Pipeline.arrRef spec0 w)) from funext (hF0 m ρ c)]
        exact gather0 (V0 m ρ) c (V1 m ρ c)
      · unfold Pipeline.unscopedRest
        exact bigSep_congr fun b hb => by rw [hrest0 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND PASS over the thread state: entered from every unscoped buffer at `W2`, left at `W3`. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the run -/

abbrev segs : List (Pipeline.Seg (pcfgs (F := F)) adm' (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and in every final state each unscoped buffer of each core holds the last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end MainRun

end Cert.Kernel.Frame

end
-- ==== Proof.K.Frame.lean ====
/-
  The frame: the program runs to the end, nothing faults, and its four argument arrays end as launched.

  The run leaves every unscoped buffer at the last contents.  An argument array is written by no host line and is
  the result array of neither pass, so those contents, walked back item by item, are the launch memory's.
-/
import proofs.«127132_j4990751998273_1_alg».proof.Proof.K.MainRun

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame

variable (m : (ℓ : Loc nD τ sig) → Buf (Elt F) ℓ) (ρ : Dev nD → PrngReg)

/-- A buffer no host line writes and no pass has as its result ends as launched. -/
theorem W4_kept (c : Dev nD) (r : Ref sig .tc) (h1 : r ∉ hostOps1_W) (h2 : r ∉ hostOps2_W)
    (h3 : ∀ w, Pipeline.arrRef spec1 w ≠ r) (h0 : r ≠ main_v0) :
    W4 m ρ c (Proc.devRef .tc r) = m ((c : Thread nD τ).loc r) :=
  (StableHlo.after_of_writes_sub hostOps2 _ hostOps2_writes h2).trans <|
    (W3_of_ne m ρ c r h3).trans <|
      (StableHlo.after_of_writes_sub hostOps1 _ hostOps1_writes h1).trans <| (W1_of_ne m ρ c r h0).trans rfl

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_kept m ρ c main_arg0 (by decide) (by decide) (by decide) (by decide)),
     (h c _ (mem_uc main_arg1 (by decide))).trans (W4_kept m ρ c main_arg1 (by decide) (by decide) (by decide) (by decide)),
     (h c _ (mem_uc main_arg2 (by decide))).trans (W4_kept m ρ c main_arg2 (by decide) (by decide) (by decide) (by decide)),
     (h c _ (mem_uc main_arg3 (by decide))).trans (W4_kept m ρ c main_arg3 (by decide) (by decide) (by decide) (by decide))⟩)
    (run_all m ρ)

end Frame

end Cert.Kernel.Frame

end
-- ==== Proof.KI.DenomRuns.lean ====
/-
  The first pass (the pairwise sum) as one region of the program: what its two per-case runs share.

  The region's grid is 8 x 8.  Window 0 brings in the row block of the point's first coordinate, window 1 the
  row block of its second coordinate, both of the one coordinate array; window 2 is the resident [1, 1] tile
  the partial sums are added into.  The body has two cases: at the first point it zeroes the tile before adding,
  at every later point it adds into what the point before left.
-/
import proofs.«127132_j4990751998273_1_alg».proof.Proof.Gen.KernelIdeal.Launch
import proofs.«127132_j4990751998273_1_alg».proof.Proof.Gen.KernelIdeal.Skeleton
import proofs.«127132_j4990751998273_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section DenomRuns

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array as the region finds it at every point,
    fetched there or not (unfetched, its block index has not moved), for any proof data whose array is that one and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array as the region finds it at every point,
    fetched there or not (unfetched, its block index has not moved), for any proof data whose array is that one and
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end DenomRuns

/-! ## The body's one condition -/

/-- "Both grid coordinates are zero", as the body computes it. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The point's two coordinates: the grid is walked row by row. -/
theorem coords0 : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-! ## The staging memrefs as the pipeline passes them -/

/-- One staging buffer of the result window, through which its contents are stated. -/
abbrev VO0_2 : View sig .tc .vmem S1x1 .f32 := (Memref.whole cc0_stg2_0 : Memref sig .tc .vmem S1x1 .f32).view
abbrev ms0_0 (t : Fin cfg0.N) : Memref sig .tc .vmem S1024x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)

end Cert.KernelIdeal.Frame

end
-- ==== Proof.KI.DenomRunA.lean ====
/-
  The first pass's body run in one of its two cases: the first grid point, where the tile is zeroed and then added into.
-/
import proofs.«127132_j4990751998273_1_alg».proof.Proof.KI.DenomRuns

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result tile's staging memref, as pieces (last first), with the proof that on
    whole staging memrefs — the two inputs' at their contents, the tile's at anything — the body runs to the
    continuation holding the inputs as they were and the tile with those pieces written. -/
noncomputable def kernelRun0_A (c : Dev nD) (i : grid0.Coords)
    (arg2 : Memref sig .tc .vmem S1024x2 .f32) (harg2 : arg2.IsWhole) (arg3 : Memref sig .tc .vmem S1024x2 .f32) (harg3 : arg3.IsWhole)
    (arg4 : Memref sig .tc .vmem S1x1 .f32) (harg4 : arg4.IsWhole) (hc0 : cond0_0 i)
    (x0 x1 : Vec F S1024x2 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__denom_kernel i arg2 harg2 arg3 harg3 arg4 harg4) K } := by
  refine ⟨?_, fun E K => ?run⟩
  case run =>
    simp only [cc0__denom_kernel_eq_skeleton]; unfold cc0__denom_kernel_skel
    simp only [k0_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Frame

end
-- ==== Proof.KI.DenomRunB.lean ====
/-
  The first pass's body run in one of its two cases: every later grid point, where the tile is added into as the point before left it.
-/
import proofs.«127132_j4990751998273_1_alg».proof.Proof.KI.DenomRunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result tile's staging memref, as pieces (last first), with the proof that on
    whole staging memrefs — the two inputs' at their contents, the tile's at its running contents — the body runs to the
    continuation holding the inputs as they were and the tile with those pieces written. -/
noncomputable def kernelRun0_B (c : Dev nD) (i : grid0.Coords)
    (arg2 : Memref sig .tc .vmem S1024x2 .f32) (harg2 : arg2.IsWhole) (arg3 : Memref sig .tc .vmem S1024x2 .f32) (harg3 : arg3.IsWhole)
    (arg4 : Memref sig .tc .vmem S1x1 .f32) (harg4 : arg4.IsWhole) (hc0 : ¬cond0_0 i)
    (x0 x1 : Vec F S1024x2 .f32) (xo2 : Vec F S1x1 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__denom_kernel i arg2 harg2 arg3 harg3 arg4 harg4) K } := by
  refine ⟨?_, fun E K => ?run⟩
  case run =>
    simp only [cc0__denom_kernel_eq_skeleton]; unfold cc0__denom_kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Frame

end
-- ==== Proof.KI.DenomRegion.lean ====
/-
  The first pass as one region: what the resident tile holds after each grid point, the region's proof data,
  and the body obligation.

  At the first point the tile ends at what the zeroing case leaves of the two input blocks; at each later point at
  what the adding case leaves of the two input blocks and of the tile as the point before left it (the tile is
  written back only after the last point, so between points its staging buffer is untouched).  The one coordinate
  array is read through two windows: each holds it at one half of the full share.
-/
import proofs.«127132_j4990751998273_1_alg».proof.Proof.KI.DenomRunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section DenomRegion

variable (V : (c : Dev nD) → (b : Ref sig .tc) → Buf (Elt F) ((c : Thread nD τ).loc b))

/-- The zeroing case's pieces tile the [1, 1] tile, so they cover it. -/
theorem cover0_A_2 (c : Dev nD) (i : grid0.Coords) (arg2 : Memref sig .tc .vmem S1024x2 .f32) (harg2 : arg2.IsWhole)
    (arg3 : Memref sig .tc .vmem S1024x2 .f32) (harg3 : arg3.IsWhole) (arg4 : Memref sig .tc .vmem S1x1 .f32) (harg4 : arg4.IsWhole)
    (hc0 : cond0_0 i) (x0 x1 : Vec F S1024x2 .f32) (y : S1x1.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x1.size (by sl_kernel_rfl) y

/-- What the zeroing case leaves in the tile. -/
def out0_A_2 (c : Dev nD) (i : grid0.Coords) (arg2 : Memref sig .tc .vmem S1024x2 .f32) (harg2 : arg2.IsWhole)
    (arg3 : Memref sig .tc .vmem S1024x2 .f32) (harg3 : arg3.IsWhole) (arg4 : Memref sig .tc .vmem S1x1 .f32) (harg4 : arg4.IsWhole)
    (hc0 : cond0_0 i) (x0 x1 : Vec F S1024x2 .f32) : Vec F S1x1 .f32 :=
  VO0_2.read (Elt F) (VO0_2.writes (Elt F) VO0_2.junk (kernelRun0_A c i arg2 harg2 arg3 harg3 arg4 harg4 hc0 x0 x1).1)

/-- The adding case's pieces tile the tile, so they cover it. -/
theorem cover0_B_2 (c : Dev nD) (i : grid0.Coords) (arg2 : Memref sig .tc .vmem S1024x2 .f32) (harg2 : arg2.IsWhole)
    (arg3 : Memref sig .tc .vmem S1024x2 .f32) (harg3 : arg3.IsWhole) (arg4 : Memref sig .tc .vmem S1x1 .f32) (harg4 : arg4.IsWhole)
    (hc0 : ¬cond0_0 i) (x0 x1 : Vec F S1024x2 .f32) (xo2 : Vec F S1x1 .f32) (y : S1x1.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x1.size (by sl_kernel_rfl) y

/-- What the adding case leaves in the tile, over its running contents `xo2`. -/
def out0_B_2 (c : Dev nD) (i : grid0.Coords) (arg2 : Memref sig .tc .vmem S1024x2 .f32) (harg2 : arg2.IsWhole)
    (arg3 : Memref sig .tc .vmem S1024x2 .f32) (harg3 : arg3.IsWhole) (arg4 : Memref sig .tc .vmem S1x1 .f32) (harg4 : arg4.IsWhole)
    (hc0 : ¬cond0_0 i) (x0 x1 : Vec F S1024x2 .f32) (xo2 : Vec F S1x1 .f32) : Vec F S1x1 .f32 :=
  VO0_2.read (Elt F) (VO0_2.writes (Elt F) VO0_2.junk (kernelRun0_B c i arg2 harg2 arg3 harg3 arg4 harg4 hc0 x0 x1 xo2).1)

/-! ## What the tile holds after each point -/

/-- THE ACCUMULATION: after the first point what the zeroing case leaves of that point's blocks; after point
    `n + 1` what the adding case leaves of that point's blocks over what point `n` left. -/
def outsAt0 (c : Dev nD) : (n : ℕ) → n < cfg0.N → Vec F S1x1 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((hcond0_0 ⟨0, hn⟩).mpr rfl) (iblk0 V c 0 ⟨0, hn⟩) (iblk0 V c 1 ⟨0, hn⟩)
  | n + 1, hn => out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
      (fun h => Nat.succ_ne_zero n ((hcond0_0 ⟨n + 1, hn⟩).mp h)) (iblk0 V c 0 ⟨n + 1, hn⟩) (iblk0 V c 1 ⟨n + 1, hn⟩) (outsAt0 c n (Nat.lt_of_succ_lt hn))

/-- At the first point. -/
theorem outsAt0_A (c : Dev nD) (t : Fin cfg0.N) (h0 : t.val = 0) :
    outsAt0 V c t.val t.isLt = out0_A_2 c (grid0.coords t) (ms0_0 t) (hs0_0 t) (ms0_1 t) (hs0_1 t) (ms0_2 t) (hs0_2 t) ((hcond0_0 t).mpr h0) (iblk0 V c 0 t) (iblk0 V c 1 t) := by
  obtain ⟨n, hn⟩ := t
  cases n with
  | zero => exact rfl
  | succ n => exact absurd h0 (Nat.succ_ne_zero n)

/-- At a later point. -/
theorem outsAt0_B (c : Dev nD) (t : Fin cfg0.N) (h0 : ¬t.val = 0) :
    outsAt0 V c t.val t.isLt = out0_B_2 c (grid0.coords t) (ms0_0 t) (hs0_0 t) (ms0_1 t) (hs0_1 t) (ms0_2 t) (hs0_2 t) (fun h => h0 ((hcond0_0 t).mp h)) (iblk0 V c 0 t) (iblk0 V c 1 t)
      (outsAt0 V c (t.val - 1) (Nat.lt_of_le_of_lt (Nat.sub_le _ _) t.isLt)) := by
  obtain ⟨n, hn⟩ := t
  cases n with
  | zero => exact absurd rfl h0
  | succ n => exact rfl

/-! ## The region's proof data -/

/-- The arrays as the region finds them; after the body each input's buffer at its block and the tile at the
    accumulation; the scoped rest and the generator register untouched; nothing owed; the coordinate array's full
    share dealt in halves to the two windows that read it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- At a later point the tile's staging buffer holds what the body left at the point before: the point is not the
    first, the buffer was not written back between, the window is live and uncut. -/
theorem before0_2_B (c : Dev nD) (t : Fin cfg0.N) (h0 : ¬t.val = 0) (d) :
    (dat0 V c).before 2 t d = outsAt0 V c (t.val - 1) (Nat.lt_of_le_of_lt (Nat.sub_le _ _) t.isLt) := by
  have hN : t.val < 64 := lt_of_lt_of_eq t.isLt (show cfg0.N = 64 from N_0)
  rw [Dat.before_out_kept _ 2 rfl t h0 (Bool.eq_false_iff.mpr fun h => by have := (flush0_2 _).mp h; dsimp only at this; omega)
    (fun _ => rfl) (fun _ _ => rfl)]
  dsimp only [dat0]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 2000000 in
/-- The body at any point: the inputs' memrefs hold their blocks; the point is the first or a later one; at a later
    one the tile holds what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · rw [outsAt0_A V c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B V c t h0]
    simp only [before0_2_B V c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end DenomRegion

end Cert.KernelIdeal.Frame

end
-- ==== Proof.KI.SharedArray.lean ====
/-
  The one coordinate array behind two windows: dealing its full share between them and gathering it back.

  The first pass reads the coordinate array through two windows.  The buffers behind the pass's arrays are two
  (the coordinate array and the result), each held whole at the full share; the pass's windows are three.  The
  first two windows take the two halves of the coordinate array's full share at the same contents, the third the
  result at the full share; read backwards, the halves join to the full share again.
-/
import proofs.«127132_j4990751998273_1_alg».proof.Proof.KI.DenomRegion

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section SharedArray

variable (V : (c : Dev nD) → (b : Ref sig .tc) → Buf (Elt F) ((c : Thread nD τ).loc b))

/-- The buffers behind the windows' arrays: the coordinate array and the result. -/
theorem arrRefs0 : Finset.univ.image (Pipeline.arrRef spec0) = {main_arg0, main_v0} := by decide

/-- The first pass's arrays at contents `A`, the windows one by one. -/
theorem arrays0_eq (c : Dev nD) (A : (w : Fin cfg0.W) → Buf (Elt F) ((cfg0.win w).arr.view.loc (c.tc : Thread nD τ))) :
    ((dat0 V c).arrays A : sProp 𝕄)
      = iprop((((c : Thread nD τ).loc main_arg0) ↦{fullShare.left} A 0) ∗ (((c : Thread nD τ).loc main_arg0) ↦{fullShare.right} A 1)
          ∗ (((c : Thread nD τ).loc main_v0) ↦{fullShare} A 2)) := by
  unfold Dat.arrays
  rw [bigSep_W0, (arr_whole0 0).set_eq_univ, (arr_whole0 2).set_eq_univ]
  rfl

/-- The buffers behind the arrays at contents `G`, one by one. -/
theorem arrBufs0_eq (c : Dev nD) (G : (b : Ref sig .tc) → Buf (Elt F) ((c : Thread nD τ).loc b)) :
    (Pipeline.arrBufs spec0 c G : sProp 𝕄)
      = iprop((((c : Thread nD τ).loc main_arg0) ↦{fullShare} G main_arg0) ∗ (((c : Thread nD τ).loc main_v0) ↦{fullShare} G main_v0)) := by
  unfold Pipeline.arrBufs
  rw [arrRefs0, bigSep_insert (by decide), bigSep_singleton]
  rfl

/-- Dealing: the two buffers whole at `G` are the three windows' arrays at `G`. -/
theorem deal0 (c : Dev nD) (G : (b : Ref sig .tc) → Buf (Elt F) ((c : Thread nD τ).loc b)) :
    (Pipeline.arrBufs spec0 c G : sProp 𝕄) ⊢ (dat0 V c).arrays (fun w => G (Pipeline.arrRef spec0 w)) := by
  rw [arrBufs0_eq, arrays0_eq]
  iintro ⟨Ha, Hv⟩
  ihave Hs := (pointsTo_share (PosShare.mem_left_op_right fullShare)).1 $$ Ha
  icases Hs with ⟨Hl, Hr⟩
  isplitl [Hl]; · iexact Hl
  isplitl [Hr]; · iexact Hr
  iexact Hv

/-- Gathering: the three windows' arrays at `G` are the two buffers whole at `G`. -/
theorem gather0 (c : Dev nD) (G : (b : Ref sig .tc) → Buf (Elt F) ((c : Thread nD τ).loc b)) :
    (dat0 V c).arrays (fun w => G (Pipeline.arrRef spec0 w)) ⊢ (Pipeline.arrBufs spec0 c G : sProp 𝕄) := by
  rw [arrBufs0_eq, arrays0_eq]
  iintro ⟨Hl, Hr, Hv⟩
  isplitl [Hl Hr]
  · iapply (pointsTo_share (PosShare.mem_left_op_right fullShare)).2
    isplitl [Hl]; · iexact Hl
    iexact Hr
  iexact Hv

end SharedArray

end Cert.KernelIdeal.Frame

end
-- ==== Proof.KI.LossRegion.lean ====
/-
  The second pass (the loss) as one region of the program, at the contents `V` its buffers hold when it is entered.

  The region has one grid point.  Four input windows bring in, whole, the two gathered and transposed
  coordinate arrays [2, P], the probabilities [1, P] and the [1, 1] denominator; the fifth window is the
  [1, 1] result.  The body loads the four inputs, computes one value from them (the skeleton's `k1_pay1`) and
  stores it over the whole result tile; nothing is carried between points, so what the result tile holds
  after the body is that value of the four input blocks.
-/
import proofs.«127132_j4990751998273_1_alg».proof.Proof.Gen.KernelIdeal.Launch
import proofs.«127132_j4990751998273_1_alg».proof.Proof.Gen.KernelIdeal.Skeleton
import proofs.«127132_j4990751998273_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section LossRegion

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 is fetched at the region's one point, whole and uncut: its staging buffer holds its block of
    the array as the region finds it, for any proof data whose array is that one and whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 is fetched at the region's one point, whole and uncut: its staging buffer holds its block of
    the array as the region finds it, for any proof data whose array is that one and whose body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 is fetched at the region's one point, whole and uncut: its staging buffer holds its block of
    the array as the region finds it, for any proof data whose array is that one and whose body leaves it in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 is fetched at the region's one point, whole and uncut: its staging buffer holds its block of
    the array as the region finds it, for any proof data whose array is that one and whose body leaves it in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its tile -/

abbrev rA1 : Rect S2x262144 := Rect.unit (s := S2x262144) ![0, 0] S2x262144.size inb_S2x262144_S2x262144_0_0
abbrev rP1 : Rect S1x262144 := Rect.unit (s := S1x262144) ![0, 0] S1x262144.size inb_S1x262144_S1x262144_0_0
abbrev rO1 : Rect S1x1 := Rect.unit (s := S1x1) ![0, 0] S1x1.size inb_S1x1_S1x1_0_0

/-- The result tile after the body: its one store, of the loss of the four input blocks. -/
def out1_4 (x0 x1 : Vec F S2x262144 .f32) (x2 : Vec F S1x262144 .f32) (x3 : Vec F S1x1 .f32) : Vec F S1x1 .f32 :=
  View.canon [⟨rO1, k1_pay1 (View.ld x0 rA1) (View.ld x1 rA1) (View.ld x3 rO1) (View.ld x2 rP1)⟩]

/-- That store covers the tile. -/
theorem cover1_4 (p0 : Vec F S1x1 .f32) (y : S1x1.Idx) :
    ∃ pc ∈ ([⟨rO1, p0⟩] : List (View.Piece (Elt F) S1x1 .f32)), y ∈ pc.1.set :=
  View.cover_of_tiled [⟨rO1, p0⟩] S1x1.size (by rfl) y

set_option maxHeartbeats 2000000 in
/-- The body on whole staging memrefs: the inputs' at contents `x0 … x3`, the result's at anything; it runs to the
    continuation holding the inputs as they were and the result tile at `out1_4` of them. -/
theorem sound_kernel1 (c : Dev nD) (E : Set ℕ) (i : grid1.Coords)
    (arg1 : Memref sig .tc .vmem S2x262144 .f32) (harg1 : arg1.IsWhole) (arg2 : Memref sig .tc .vmem S2x262144 .f32) (harg2 : arg2.IsWhole)
    (arg3 : Memref sig .tc .vmem S1x262144 .f32) (harg3 : arg3.IsWhole) (arg4 : Memref sig .tc .vmem S1x1 .f32) (harg4 : arg4.IsWhole)
    (arg5 : Memref sig .tc .vmem S1x1 .f32) (harg5 : arg5.IsWhole)
    (x0 x1 : Vec F S2x262144 .f32) (x2 : Vec F S1x262144 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__loss_kernel i arg1 harg1 arg2 harg2 arg3 harg3 arg4 harg4 arg5 harg5) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The region's proof data -/

/-- The arrays as the region finds them; after the body each input's buffer at its block and the result's at
    `out1_4` of the input blocks; the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at the point: the inputs' memrefs hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end LossRegion

end Cert.KernelIdeal.Frame

end
-- ==== Proof.KI.MainRun.lean ====
/-
  The whole program's run.

  The program is four items in a row: the first pass (a region), a stretch of host lines (subtracting the pair
  count, gathering and transposing the sampled rows), the second pass (a region), and one host line reshaping
  the [1, 1] result to a scalar.  Between items every unscoped buffer of the core is held whole at known
  contents: the launch memory, then the same with the first pass's result tile at what its last write-back
  leaves, then the fold of the host lines over that, then the same with the second pass's result, then the fold
  of the last line.  Each region takes its arrays out of those buffers on entry and puts them back on exit; the
  first pass's coordinate array goes to its two windows in halves and comes back whole.  The run ends with every
  unscoped buffer at the last contents, from which both the unchanged arguments and the result are read.
-/
import proofs.«127132_j4990751998273_1_alg».proof.Proof.KI.SharedArray
import proofs.«127132_j4990751998273_1_alg».proof.Proof.KI.LossRegion
import proofs.«127132_j4990751998273_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section MainRun

variable (m : (ℓ : Loc nD τ sig) → Buf (Elt F) ℓ) (ρ : Dev nD → PrngReg)

/-! ## The buffers' contents between items -/

/-- Core `c`'s buffers at launch: the first pass's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At the first pass's exit: the result tile's array at what the write-backs leave, every other buffer as entered. -/
def W1 (c : Dev nD) : Valuation τ sig (Elt F) :=
  Function.update (W0 m ρ c) (Proc.devRef .tc main_v0) ((dat0 (V0 m ρ) c).arrAt 2 cfg0.N)
theorem W1_v0 (c : Dev nD) : W1 m ρ c (Proc.devRef .tc main_v0) = (dat0 (V0 m ρ) c).arrAt 2 cfg0.N := by
  unfold W1; exact Function.update_self _ _ _
theorem W1_of_ne (c : Dev nD) (b : Ref sig .tc) (hb : b ≠ main_v0) :
    W1 m ρ c (Proc.devRef .tc b) = W0 m ρ c (Proc.devRef .tc b) := by
  unfold W1; exact Function.update_of_ne (StableHlo.devRef_ne_of_ne hb) _ _
abbrev V1 : (c : Dev nD) → (b : Ref sig .tc) → Buf (Elt F) ((c : Thread nD τ).loc b) := fun c b => W1 m ρ c b

/-- Each of the first pass's arrays at its exit contents, -/
theorem hF0 (c : Dev nD) : ∀ w : Fin cfg0.W, (dat0 (V0 m ρ) c).arrAt w cfg0.N = V1 m ρ c (Pipeline.arrRef spec0 w)
  | ⟨0, _⟩ => (((dat0 (V0 m ρ) c).arrAt_in 0 rfl _).trans (A_eq0 (V0 m ρ) c 0)).trans (W1_of_ne m ρ c main_arg0 (by decide)).symm
  | ⟨1, _⟩ => (((dat0 (V0 m ρ) c).arrAt_in 1 rfl _).trans (A_eq0 (V0 m ρ) c 1)).trans (W1_of_ne m ρ c main_arg0 (by decide)).symm
  | ⟨2, _⟩ => (W1_v0 m ρ c).symm
/-- and every other buffer as entered. -/
theorem hrest0 (c : Dev nD) : ∀ b, b ∉ Finset.univ.image (Pipeline.arrRef spec0) → V1 m ρ c b = V0 m ρ c b :=
  fun b hb => W1_of_ne m ρ c b fun e => hb (e ▸ (by decide : main_v0 ∈ Finset.univ.image (Pipeline.arrRef spec0)))

/-- After the host lines between the passes: the second pass's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At the second pass's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host line: the program's end. -/
abbrev W4 : Dev nD → Valuation τ sig (Elt F) := fun c => StableHlo.after hostOps2 (W3 m ρ c)

/-! ## The proof data family and the thread state -/

abbrev adm' : (p : Fin 2) → (pcfgs (F := F) p).Adm := fun p => (cfgs p).toPCfg_adm
/-- Each pass's proof data at its entry contents. -/
def pdats : (p : Fin 2) → (c : Dev nD) → Dat τ (Elt F) Unit ℕ (UR sig nD τ) ℕ (Pipeline.pin (pcfgs (F := F)) adm' p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as an item over the unscoped buffers from contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W4 m ρ c) ∗ ∃ r, prngReg c r)

/-! ## The two passes as items -/

set_option backward.isDefEq.respectTransparency.types false in
/-- THE FIRST PASS over the thread state: entered from every unscoped buffer at the launch contents, left at `W1`. -/
def reg0 : Pipeline.RegionSeg (pcfgs (F := F)) adm' (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit : (unscopedBufs (Ix := Unit) (Name := ℕ) (U := UR sig nD τ) (Lvl := ℕ) c (V0 m ρ c) : sProp 𝕄)
        ⊢ iprop((pdats m ρ 0 c).arrays ((pdats m ρ 0 c).arrAt · 0)
            ∗ Pipeline.unscopedRest (Ix := Unit) (Name := ℕ) (U := UR sig nD τ) (Lvl := ℕ) spec0 c (V0 m ρ c)) := by
      rw [Pipeline.unscopedBufs_split₀ cfgs 0 winFacts₀0.arr_unscoped c (V0 m ρ c)]
      exact sep_mono (deal0 (V0 m ρ) c (V0 m ρ c)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
          ∗ Pipeline.unscopedRest (Ix := Unit) (Name := ℕ) (U := UR sig nD τ) (Lvl := ℕ) spec0 c (V0 m ρ c))
        ⊢ (unscopedBufs (Ix := Unit) (Name := ℕ) (U := UR sig nD τ) (Lvl := ℕ) c (V1 m ρ c) : sProp 𝕄) := by
      rw [Pipeline.unscopedBufs_split₀ cfgs 0 winFacts₀0.arr_unscoped c (V1 m ρ c)]
      refine sep_mono ?_ (Entails.of_eq ?_)
      · rw [show ((pdats m ρ 0 c).arrAt · cfg0.N) = (fun w => V1 m ρ c (Pipeline.arrRef spec0 w)) from funext (hF0 m ρ c)]
        exact gather0 (V0 m ρ) c (V1 m ρ c)
      · unfold Pipeline.unscopedRest
        exact bigSep_congr fun b hb => by rw [hrest0 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND PASS over the thread state: entered from every unscoped buffer at `W2`, left at `W3`. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the run -/

abbrev segs : List (Pipeline.Seg (pcfgs (F := F)) adm' (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and in every final state each unscoped buffer of each core holds the last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end MainRun

end Cert.KernelIdeal.Frame

end
-- ==== Proof.KI.Frame.lean ====
/-
  The frame: the program runs to the end, nothing faults, and its four argument arrays end as launched.

  The run leaves every unscoped buffer at the last contents.  An argument array is written by no host line and is
  the result array of neither pass, so those contents, walked back item by item, are the launch memory's.
-/
import proofs.«127132_j4990751998273_1_alg».proof.Proof.KI.MainRun

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame

variable (m : (ℓ : Loc nD τ sig) → Buf (Elt F) ℓ) (ρ : Dev nD → PrngReg)

/-- A buffer no host line writes and no pass has as its result ends as launched. -/
theorem W4_kept (c : Dev nD) (r : Ref sig .tc) (h1 : r ∉ hostOps1_W) (h2 : r ∉ hostOps2_W)
    (h3 : ∀ w, Pipeline.arrRef spec1 w ≠ r) (h0 : r ≠ main_v0) :
    W4 m ρ c (Proc.devRef .tc r) = m ((c : Thread nD τ).loc r) :=
  (StableHlo.after_of_writes_sub hostOps2 _ hostOps2_writes h2).trans <|
    (W3_of_ne m ρ c r h3).trans <|
      (StableHlo.after_of_writes_sub hostOps1 _ hostOps1_writes h1).trans <| (W1_of_ne m ρ c r h0).trans rfl

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_kept m ρ c main_arg0 (by decide) (by decide) (by decide) (by decide)),
     (h c _ (mem_uc main_arg1 (by decide))).trans (W4_kept m ρ c main_arg1 (by decide) (by decide) (by decide) (by decide)),
     (h c _ (mem_uc main_arg2 (by decide))).trans (W4_kept m ρ c main_arg2 (by decide) (by decide) (by decide) (by decide)),
     (h c _ (mem_uc main_arg3 (by decide))).trans (W4_kept m ρ c main_arg3 (by decide) (by decide) (by decide) (by decide))⟩)
    (run_all m ρ)

end Frame

end Cert.KernelIdeal.Frame

end
-- ==== Proof.KI.Values.lean ====
/-
  What the two passes compute, read as values (at any float instance).

  For each pass: what a case of the body leaves in the result tile, as the skeleton's payload terms of the loaded
  blocks; which rows of its array a window's block at a grid point is; and the result array after the pass, which
  is the tile as its one write-back left it (the first pass writes its tile back after the last point only, the
  second has a single point).
-/
import proofs.«127132_j4990751998273_1_alg».proof.Proof.KI.MainRun
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Values

theorem hz : (![0, 0] : Fin 2 → Nat) = fun _ => 0 := funext fun a => by fin_cases a <;> rfl

/-! ## The tiles after a body, as payload terms -/

/-- The second pass's result tile is the loss term of its four input blocks. -/
theorem out1_4_eq (x0 x1 : Vec F S2x262144 .f32) (x2 : Vec F S1x262144 .f32) (x3 : Vec F S1x1 .f32) :
    out1_4 x0 x1 x2 x3 = k1_pay1 x0 x1 x3 x2 := by
  unfold out1_4
  rw [View.canon_unit_zero (S := S1x1) hz]
  simp only [View.ld_unit_zero (S := S2x262144) hz, View.ld_unit_zero (S := S1x262144) hz, View.ld_unit_zero (S := S1x1) hz]

set_option maxHeartbeats 1000000 in
/-- At the first grid point the tile ends at the point's partial sum added to the zero tile. -/
theorem out0_A_2_eq (c : Dev nD) (i : grid0.Coords) (arg2 : Memref sig .tc .vmem S1024x2 .f32) (harg2 : arg2.IsWhole)
    (arg3 : Memref sig .tc .vmem S1024x2 .f32) (harg3 : arg3.IsWhole) (arg4 : Memref sig .tc .vmem S1x1 .f32) (harg4 : arg4.IsWhole)
    (hc0 : cond0_0 i) (x0 x1 : Vec F S1024x2 .f32) :
    out0_A_2 c i arg2 harg2 arg3 harg3 arg4 harg4 hc0 x0 x1 = k0_pay1 (k0_pay3 x0 x1) (k0_pay2 (F := F)) := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S1x1) hz, View.readCov_unit_zero (S := S1x1) arg4.view hz]
  simp only [View.readAt_eq_ld, harg2.read_unread, harg3.read_unread, View.ld_unit_zero (S := S1024x2) hz]

set_option maxHeartbeats 1000000 in
/-- At a later grid point the tile ends at the point's partial sum added to what it held. -/
theorem out0_B_2_eq (c : Dev nD) (i : grid0.Coords) (arg2 : Memref sig .tc .vmem S1024x2 .f32) (harg2 : arg2.IsWhole)
    (arg3 : Memref sig .tc .vmem S1024x2 .f32) (harg3 : arg3.IsWhole) (arg4 : Memref sig .tc .vmem S1x1 .f32) (harg4 : arg4.IsWhole)
    (hc0 : ¬cond0_0 i) (x0 x1 : Vec F S1024x2 .f32) (xo2 : Vec F S1x1 .f32) :
    out0_B_2 c i arg2 harg2 arg3 harg3 arg4 harg4 hc0 x0 x1 xo2 = k0_pay1 (k0_pay3 x0 x1) xo2 := by
  unfold out0_B_2
  rw [View.read_writes_eq_canon _ _ _ (cover0_B_2 c i arg2 harg2 arg3 harg3 arg4 harg4 hc0 x0 x1 xo2)]
  unfold kernelRun0_B
  dsimp only
  sl_unfold_words
  rw [View.canon_unit_zero (S := S1x1) hz]
  simp only [View.readAt_eq_ld, harg2.read_unread, harg3.read_unread, harg4.read_unread,
    View.ld_unit_zero (S := S1024x2) hz, View.ld_unit_zero (S := S1x1) hz]

/-! ## The printed index maps, decided over the grids -/

theorem idx0 : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = 0 :=
  (by decide +kernel : ∀ t : Fin grid0.N, _)

theorem idx1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

variable (V : (c : Dev nD) → (b : Ref sig .tc) → Buf (Elt F) ((c : Thread nD τ).loc b))

/-! ## The windows' blocks, read at coordinates -/

/-- Window 0's block at point `t` is the row block `t / 8` of the coordinate array. -/
theorem iblk0_0_apply (c : Dev nD) (t : Fin cfg0.N) (r : Fin 1024) (d : Fin 2) (hb : 1024 * (t.val / 8) + r.val < 8192) :
    (iblk0 V c 0 t : Vec F S1024x2 .f32) (ix2 r d) = (V c main_arg0 : S8192x2.Idx → Elt F .f32) (ix2 (⟨1024 * (t.val / 8) + r.val, hb⟩ : Fin 8192) d) := by
  obtain ⟨e0, e1, -⟩ := idx0 t
  show (V c main_arg0 : S8192x2.Idx → Elt F .f32) (((cfg0.win 0).blk t).view.emb (ix2 r d)) = _
  refine congrArg (V c main_arg0 : S8192x2.Idx → Elt F .f32) (funext fun a => Fin.ext ?_)
  match a with
  | ⟨0, _⟩ => show win0_0.index t (0 : Fin 2) * 1024 + 1 * r.val = 1024 * (t.val / 8) + r.val; omega
  | ⟨1, _⟩ => show win0_0.index t (1 : Fin 2) * 2 + 1 * d.val = d.val; omega

/-- Window 1's block at point `t` is the row block `t % 8` of the coordinate array. -/
theorem iblk0_1_apply (c : Dev nD) (t : Fin cfg0.N) (r : Fin 1024) (d : Fin 2) (hb : 1024 * (t.val % 8) + r.val < 8192) :
    (iblk0 V c 1 t : Vec F S1024x2 .f32) (ix2 r d) = (V c main_arg0 : S8192x2.Idx → Elt F .f32) (ix2 (⟨1024 * (t.val % 8) + r.val, hb⟩ : Fin 8192) d) := by
  obtain ⟨-, -, e0, e1, -⟩ := idx0 t
  show (V c main_arg0 : S8192x2.Idx → Elt F .f32) (((cfg0.win 1).blk t).view.emb (ix2 r d)) = _
  refine congrArg (V c main_arg0 : S8192x2.Idx → Elt F .f32) (funext fun a => Fin.ext ?_)
  match a with
  | ⟨0, _⟩ => show win0_1.index t (0 : Fin 2) * 1024 + 1 * r.val = 1024 * (t.val % 8) + r.val; omega
  | ⟨1, _⟩ => show win0_1.index t (1 : Fin 2) * 2 + 1 * d.val = d.val; omega

/-- The second pass's input blocks are its arrays, whole. -/
theorem iblk1_0_eq (c : Dev nD) (t : Fin cfg1.N) : (iblk1 V c 0 t : Vec F S2x262144 .f32) = (V c main_v17 : S2x262144.Idx → Elt F .f32) := by
  obtain ⟨e0, e1, -⟩ := idx1 t
  funext y
  show (V c main_v17 : S2x262144.Idx → Elt F .f32) (((cfg1.win 0).blk t).view.emb y) = _
  refine congrArg (V c main_v17 : S2x262144.Idx → Elt F .f32) (funext fun a => Fin.ext ?_)
  match a with
  | ⟨0, _⟩ => show win1_0.index t (0 : Fin 2) * 2 + 1 * (y 0).val = (y 0).val; omega
  | ⟨1, _⟩ => show win1_0.index t (1 : Fin 2) * 262144 + 1 * (y 1).val = (y 1).val; omega
theorem iblk1_1_eq (c : Dev nD) (t : Fin cfg1.N) : (iblk1 V c 1 t : Vec F S2x262144 .f32) = (V c main_v18 : S2x262144.Idx → Elt F .f32) := by
  obtain ⟨-, -, e0, e1, -⟩ := idx1 t
  funext y
  show (V c main_v18 : S2x262144.Idx → Elt F .f32) (((cfg1.win 1).blk t).view.emb y) = _
  refine congrArg (V c main_v18 : S2x262144.Idx → Elt F .f32) (funext fun a => Fin.ext ?_)
  match a with
  | ⟨0, _⟩ => show win1_1.index t (0 : Fin 2) * 2 + 1 * (y 0).val = (y 0).val; omega
  | ⟨1, _⟩ => show win1_1.index t (1 : Fin 2) * 262144 + 1 * (y 1).val = (y 1).val; omega
theorem iblk1_2_eq (c : Dev nD) (t : Fin cfg1.N) : (iblk1 V c 2 t : Vec F S1x262144 .f32) = (V c main_v19 : S1x262144.Idx → Elt F .f32) := by
  obtain ⟨-, -, -, -, e0, e1, -⟩ := idx1 t
  funext y
  show (V c main_v19 : S1x262144.Idx → Elt F .f32) (((cfg1.win 2).blk t).view.emb y) = _
  refine congrArg (V c main_v19 : S1x262144.Idx → Elt F .f32) (funext fun a => Fin.ext ?_)
  match a with
  | ⟨0, _⟩ => show win1_2.index t (0 : Fin 2) * 1 + 1 * (y 0).val = (y 0).val; omega
  | ⟨1, _⟩ => show win1_2.index t (1 : Fin 2) * 262144 + 1 * (y 1).val = (y 1).val; omega
theorem iblk1_3_eq (c : Dev nD) (t : Fin cfg1.N) : (iblk1 V c 3 t : Vec F S1x1 .f32) = (V c main_v2 : S1x1.Idx → Elt F .f32) := by
  obtain ⟨-, -, -, -, -, -, e0, e1, -⟩ := idx1 t
  funext y
  show (V c main_v2 : S1x1.Idx → Elt F .f32) (((cfg1.win 3).blk t).view.emb y) = _
  refine congrArg (V c main_v2 : S1x1.Idx → Elt F .f32) (funext fun a => Fin.ext ?_)
  match a with
  | ⟨0, _⟩ => show win1_3.index t (0 : Fin 2) * 1 + 1 * (y 0).val = (y 0).val; omega
  | ⟨1, _⟩ => show win1_3.index t (1 : Fin 2) * 1 + 1 * (y 1).val = (y 1).val; omega

/-! ## The result arrays after each pass -/

theorem h63 : 63 < cfg0.N := lt_of_lt_of_eq (by decide : 63 < 64) (show (64 : ℕ) = cfg0.N from N_0.symm)

/-- The first pass's result array ends at the tile as the last grid point left it. -/
theorem final0 (c : Dev nD) : (dat0 V c).arrAt 2 cfg0.N = (outsAt0 V c 63 h63 : S1x1.Idx → Elt F .f32) := by
  refine (dat0 V c).arrAt_eq_of_cover 2 _ (fun t hf => ?_) (fun i => ⟨⟨63, h63⟩, (flush0_2 _).mpr rfl, ?_⟩)
  · have ht : t = ⟨63, h63⟩ := Fin.ext (by
      have h1 := (flush0_2 t).mp hf
      have h2 : t.val < 64 := lt_of_lt_of_eq t.isLt N_0
      show t.val = 63; omega)
    subst ht
    obtain ⟨-, -, -, -, e0, e1⟩ := idx0 (⟨63, h63⟩ : Fin cfg0.N)
    show (cfg0.win 2).cut (grid0.coords ⟨63, h63⟩) ((dat0 V c).after 2 ⟨63, h63⟩) = _
    rw [after0_2]
    funext j
    show outsAt0 V c 63 h63 j = (outsAt0 V c 63 h63 : S1x1.Idx → Elt F .f32) (((cfg0.win 2).blk ⟨63, h63⟩).view.emb j)
    refine congrArg (outsAt0 V c 63 h63 : S1x1.Idx → Elt F .f32) (funext fun a => Fin.ext ?_)
    match a with
    | ⟨0, _⟩ => show (j 0).val = win0_2.index ⟨63, h63⟩ (0 : Fin 2) * 1 + 1 * (j 0).val; omega
    | ⟨1, _⟩ => show (j 1).val = win0_2.index ⟨63, h63⟩ (1 : Fin 2) * 1 + 1 * (j 1).val; omega
  · obtain ⟨-, -, -, -, e0, e1⟩ := idx0 (⟨63, h63⟩ : Fin cfg0.N)
    show i ∈ ((View.whole main_v0).slice (win0_2.rect ⟨63, h63⟩)).set
    rw [View.set_slice_whole, Rect.mem_set_unit]
    intro a
    match a with
    | ⟨0, _⟩ => show win0_2.index ⟨63, h63⟩ (0 : Fin 2) * 1 ≤ (i 0).val ∧ (i 0).val < win0_2.index ⟨63, h63⟩ (0 : Fin 2) * 1 + 1; have hi : (i 0).val < 1 := (i 0).isLt; omega
    | ⟨1, _⟩ => show win0_2.index ⟨63, h63⟩ (1 : Fin 2) * 1 ≤ (i 1).val ∧ (i 1).val < win0_2.index ⟨63, h63⟩ (1 : Fin 2) * 1 + 1; have hi : (i 1).val < 1 := (i 1).isLt; omega

/-- The second pass's result array ends at the tile as its one grid point left it. -/
theorem final1 (c : Dev nD) : (dat1 V c).arrAt 4 cfg1.N
    = (out1_4 (iblk1 V c 0 t1_0) (iblk1 V c 1 t1_0) (iblk1 V c 2 t1_0) (iblk1 V c 3 t1_0) : S1x1.Idx → Elt F .f32) := by
  refine (dat1 V c).arrAt_eq_of_cover 4 _ (fun t hf => ?_) (fun i => ⟨t1_0, flush1_4 _, ?_⟩)
  · obtain rfl := fin_N1 t
    obtain ⟨-, -, -, -, -, -, -, -, e0, e1⟩ := idx1 t1_0
    show (cfg1.win 4).cut (grid1.coords t1_0) ((dat1 V c).after 4 t1_0) = _
    rw [after1_4]
    funext j
    show out1_4 (iblk1 V c 0 t1_0) (iblk1 V c 1 t1_0) (iblk1 V c 2 t1_0) (iblk1 V c 3 t1_0) j
      = (out1_4 (iblk1 V c 0 t1_0) (iblk1 V c 1 t1_0) (iblk1 V c 2 t1_0) (iblk1 V c 3 t1_0) : S1x1.Idx → Elt F .f32) (((cfg1.win 4).blk t1_0).view.emb j)
    refine congrArg (out1_4 (iblk1 V c 0 t1_0) (iblk1 V c 1 t1_0) (iblk1 V c 2 t1_0) (iblk1 V c 3 t1_0) : S1x1.Idx → Elt F .f32) (funext fun a => Fin.ext ?_)
    match a with
    | ⟨0, _⟩ => show (j 0).val = win1_4.index t1_0 (0 : Fin 2) * 1 + 1 * (j 0).val; omega
    | ⟨1, _⟩ => show (j 1).val = win1_4.index t1_0 (1 : Fin 2) * 1 + 1 * (j 1).val; omega
  · obtain ⟨-, -, -, -, -, -, -, -, e0, e1⟩ := idx1 t1_0
    show i ∈ ((View.whole main_v20).slice (win1_4.rect t1_0)).set
    rw [View.set_slice_whole, Rect.mem_set_unit]
    intro a
    match a with
    | ⟨0, _⟩ => show win1_4.index t1_0 (0 : Fin 2) * 1 ≤ (i 0).val ∧ (i 0).val < win1_4.index t1_0 (0 : Fin 2) * 1 + 1; have hi : (i 0).val < 1 := (i 0).isLt; omega
    | ⟨1, _⟩ => show win1_4.index t1_0 (1 : Fin 2) * 1 ≤ (i 1).val ∧ (i 1).val < win1_4.index t1_0 (1 : Fin 2) * 1 + 1; have hi : (i 1).val < 1 := (i 1).isLt; omega

end Values

end Cert.KernelIdeal.Frame

end
-- ==== Proof.LossValue.lean ====
import proofs.«127132_j4990751998273_1_alg».proof.Proof.Gen.KernelIdeal.Skeleton
import proofs.«127132_j4990751998273_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

/-!
# The loss pass: the kernel's second payload is the reference's last sum

The kernel's second pass holds the two gathered point arrays transposed, as [2, P] (coordinate first, pair
second), the pair probabilities as one row [1, P] and the normaliser as a [1, 1] tile, and stores

  ∑ p, q p * (log (q p) - log ((1 / (1 + ∑ d, (A d p - B d p)²)) / D)).

The reference computes the same number from [P, 2] arrays (pair first, coordinate second) with a reduction over
the second axis and a final reduction of a [P] array to a scalar started from zero. At the ideal instance both
are finite sums of extended reals of one and the same element term, so they agree term by term: nothing about the
finiteness of any input is used.
-/

noncomputable section

namespace Cert.Bridge.Loss

open Idealize.ShloMosaic Idealize.ShloMosaic.ValueIdx
open scoped BigOperators

/-! ## The element term -/

/-- One pair's contribution: q * (log q - log ((1 / (1 + s)) / dn)) with q the pair's probability, s its
    squared distance and dn the normaliser; 1 is the f32 word of 1.0 read at the ideal instance. -/
def term (q s dn : EReal) : EReal :=
  q * (Ideal.log q - Ideal.log (Ideal.div (Ideal.div (Ideal.ofBits .f32 0x3F800000#32) (Ideal.ofBits .f32 0x3F800000#32 + s)) dn))

theorem term_congr {q q' s s' dn dn' : EReal} (hq : q = q') (hs : s = s') (hd : dn = dn') :
    term q s dn = term q' s' dn' := by
  subst hq hs hd; rfl

/-- The same term over whole vectors, spelt with the vector operations a kernel applies. -/
def lossVec {s : Shape} (q sq dn : FVec Ideal s .f32) : FVec Ideal s .f32 :=
  mulf q (subf (Idealize.ShloMosaic.log q) (Idealize.ShloMosaic.log
    (divf (divf (broadcast s (Scalar.ofBits .f32 0x3F800000#32)) (addf (broadcast s (Scalar.ofBits .f32 0x3F800000#32)) sq)) dn)))

/-- Read at an index it is the element term of the three elements. -/
theorem lossVec_apply {s : Shape} (q sq dn : FVec Ideal s .f32) (i : s.Idx) :
    lossVec q sq dn i = term (q i) (sq i) (dn i) := rfl

/-! ## Sums over a one-axis index set, and the two reductions read at an index -/

/-- A rank-1 index set is its one coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ p : Fin n, f (ix1 p) := by
  rw [← Equiv.sum_comp (idxEquiv1 (n := n)).symm f]
  exact Finset.sum_congr rfl fun p _ => rfl

/-- The sum over the LAST axis of a one-row matrix [1, n] into [1], cast to [1, 1], read at its one index: the
    sum of the row. -/
theorem rowsum_cast_apply {n : Nat} (w : FVec Ideal ⟨2, ![1, n]⟩ .f32)
    (h : (⟨2, ![1, n]⟩ : Shape).Reduces [1] ⟨1, ![1]⟩) (hφ : FKind.Formats .f32)
    (hacc : (0x00000000#32 : BitVec 32) = FKind.add.neutral .f32 hφ)
    (hc : (⟨1, ![1]⟩ : Shape).ShapeCasts ⟨2, ![1, 1]⟩) :
    shapeCast ⟨2, ![1, 1]⟩ (multiReduction .add [1] ⟨1, ![1]⟩ w 0x00000000#32 h hφ hacc) hc (ix2 (0 : Fin 1) (0 : Fin 1))
      = ∑ p : Fin n, w (ix2 (0 : Fin 1) p) := by
  refine (shapeCast_a_1a_apply _ hc (0 : Fin 1) (0 : Fin 1)).trans ?_
  refine (Ideal.multiReduction_add_single w _ h hφ hacc (ix1 (0 : Fin 1))).trans ?_
  refine Finset.sum_congr rfl fun p _ => congrArg w (funext fun c => Fin.ext ?_)
  match c with
  | ⟨0, _⟩ => rfl
  | ⟨1, _⟩ => rfl

/-- The sum over the FIRST axis of a two-row matrix [2, n] into [n], cast to the row [1, n], read at (0, p):
    the sum of column p. -/
theorem colsum_cast_apply {n : Nat} (u : FVec Ideal ⟨2, ![2, n]⟩ .f32)
    (h : (⟨2, ![2, n]⟩ : Shape).Reduces [0] ⟨1, ![n]⟩) (hφ : FKind.Formats .f32)
    (hacc : (0x00000000#32 : BitVec 32) = FKind.add.neutral .f32 hφ)
    (hc : (⟨1, ![n]⟩ : Shape).ShapeCasts ⟨2, ![1, n]⟩) (p : Fin n) :
    shapeCast ⟨2, ![1, n]⟩ (multiReduction .add [0] ⟨1, ![n]⟩ u 0x00000000#32 h hφ hacc) hc (ix2 (0 : Fin 1) p)
      = ∑ d : Fin 2, u (ix2 d p) := by
  refine (shapeCast_a_1a_apply _ hc (0 : Fin 1) p).trans ?_
  refine (Ideal.multiReduction_add_single u _ h hφ hacc (ix1 p)).trans ?_
  refine Finset.sum_congr rfl fun d _ => congrArg u (funext fun c => Fin.ext ?_)
  match c with
  | ⟨0, _⟩ => rfl
  | ⟨1, _⟩ => rfl

/-- A [1, 1] tile broadcast along the row [1, n] reads its one element everywhere. -/
theorem broadcastTo_11_1n_apply {α : Type} {n : Nat} (v : (⟨2, ![1, 1]⟩ : Shape).Idx → α)
    (h : (⟨2, ![1, 1]⟩ : Shape).Broadcasts ⟨2, ![1, n]⟩) (p : Fin n) :
    broadcastTo ⟨2, ![1, n]⟩ v h (ix2 (0 : Fin 1) p) = v (ix2 (0 : Fin 1) (0 : Fin 1)) := by
  refine broadcastTo_apply v h (ix2 (0 : Fin 1) p) (ix2 (0 : Fin 1) (0 : Fin 1)) fun ax => ?_
  match ax with
  | ⟨0, _⟩ => rfl
  | ⟨1, _⟩ => rfl

/-! ## The kernel's second payload at its one index -/

/-- The second pass's stored value over ANY four loaded arrays: the sum over the pairs of the element term of the
    pair's probability, its squared distance (the sum over the two coordinates, which sit on the first axis) and the
    normaliser tile's element. -/
theorem pay_eq (a b : Vec Ideal Cert.KernelIdeal.S2x262144 .f32) (D : Vec Ideal Cert.KernelIdeal.S1x1 .f32)
    (pij2 : Vec Ideal Cert.KernelIdeal.S1x262144 .f32) :
    Cert.KernelIdeal.Gen.k1_pay1 (F := Ideal) a b D pij2 (ix2 0 0)
      = ∑ p : Fin 262144, term (pij2 (ix2 0 p))
          (∑ d : Fin 2, (a (ix2 d p) - b (ix2 d p)) * (a (ix2 d p) - b (ix2 d p))) (D (ix2 0 0)) := by
  unfold Cert.KernelIdeal.Gen.k1_pay1
  refine (rowsum_cast_apply _ _ _ _ _).trans (Finset.sum_congr rfl fun p _ => ?_)
  refine (lossVec_apply _ _ _ (ix2 (0 : Fin 1) p)).trans (term_congr ?_ ?_ ?_)
  · exact congrFun (shapeCast_self pij2 _) _
  · refine (colsum_cast_apply _ _ _ _ _ p).trans (Finset.sum_congr rfl fun d _ => ?_)
    show (shapeCast Cert.KernelIdeal.S2x262144 a _ (ix2 d p) - shapeCast Cert.KernelIdeal.S2x262144 b _ (ix2 d p))
        * (shapeCast Cert.KernelIdeal.S2x262144 a _ (ix2 d p) - shapeCast Cert.KernelIdeal.S2x262144 b _ (ix2 d p)) = _
    rw [shapeCast_self a, shapeCast_self b]
  · exact (broadcastTo_11_1n_apply _ _ p).trans (congrFun (shapeCast_self D _) _)

/-! ## The reference's last product at a pair -/

/-- The reference's reduction over the second axis of [P, 2] reads, for pair p and coordinate k, the element (p, k). -/
theorem idx_v16 (p : Fin 262144) (k : Fin 2) : Cert.ReferenceIdeal.Read.idx_main_v16 (ix1 p) k = ix2 p k :=
  funext fun a => Fin.ext (by match a with | ⟨0, _⟩ => rfl | ⟨1, _⟩ => rfl)

/-- The array the reference sums last, read at pair p: the element term of the pair's probability, the sum over the two
    coordinates (on the SECOND axis here) of the squared difference of the two gathered arrays, and the scalar
    normaliser. The two gathers stay as they are. -/
theorem ref_elem (x0 : (⟨Cert.ReferenceIdeal.S8192x2, .f32⟩ : BufTy).Contents (Elt Ideal))
    (x1 : (⟨Cert.ReferenceIdeal.S262144, .f32⟩ : BufTy).Contents (Elt Ideal))
    (x2 x3 : (⟨Cert.ReferenceIdeal.S262144, .i32⟩ : BufTy).Contents (Elt Ideal)) (p : Fin 262144) :
    Cert.ReferenceIdeal.Read.val_main_v44 (F := Ideal) x0 x1 x2 x3 (ix1 p)
      = term (x1 (ix1 p))
          (∑ d : Fin 2, (Cert.ReferenceIdeal.Read.val_main_v6 (F := Ideal) x0 x2 (ix2 p d)
                - Cert.ReferenceIdeal.Read.val_main_v13 (F := Ideal) x0 x3 (ix2 p d))
              * (Cert.ReferenceIdeal.Read.val_main_v6 (F := Ideal) x0 x2 (ix2 p d)
                - Cert.ReferenceIdeal.Read.val_main_v13 (F := Ideal) x0 x3 (ix2 p d)))
          (Cert.ReferenceIdeal.Read.val_main_v38 (F := Ideal) x0 ix0) := by
  rw [Cert.ReferenceIdeal.Read.val_main_v44_apply, Cert.ReferenceIdeal.Read.val_main_v43_apply,
    Cert.ReferenceIdeal.Read.val_main_v41_apply, Cert.ReferenceIdeal.Read.val_main_v42_apply,
    Cert.ReferenceIdeal.Read.val_main_v40_apply, Cert.ReferenceIdeal.Read.val_main_v20_apply,
    Cert.ReferenceIdeal.Read.val_main_v39_apply, Cert.ReferenceIdeal.Read.val_main_v19_apply,
    Cert.ReferenceIdeal.Read.val_main_v18_apply, Cert.ReferenceIdeal.Read.val_main_v17_apply,
    Cert.ReferenceIdeal.Read.val_main_v16_apply, Cert.ReferenceIdeal.Read.val_main_cst_4_apply,
    Cert.ReferenceIdeal.Read.val_main_cst_3_apply, Cert.ReferenceIdeal.Read.val_main_cst_apply]
  simp only [idx_v16, Cert.ReferenceIdeal.Read.val_main_v15_apply, Cert.ReferenceIdeal.Read.val_main_v14_apply,
    Ideal.ofBits_def, Ideal.ofBits_zero_f32, zero_add]
  rfl

/-! ## The two sums agree -/

open Idealize.ShloMosaic ValueIdx in
theorem loss_eq_reference
    (x0 : (⟨Cert.ReferenceIdeal.S8192x2, .f32⟩ : BufTy).Contents (Elt Ideal))
    (x1 : (⟨Cert.ReferenceIdeal.S262144, .f32⟩ : BufTy).Contents (Elt Ideal))
    (x2 x3 : (⟨Cert.ReferenceIdeal.S262144, .i32⟩ : BufTy).Contents (Elt Ideal))
    (a b : Vec Ideal Cert.KernelIdeal.S2x262144 .f32) (pij2 : Vec Ideal Cert.KernelIdeal.S1x262144 .f32)
    (D : Vec Ideal Cert.KernelIdeal.S1x1 .f32)
    (ha : ∀ (d : Fin 2) (p : Fin 262144), a (ix2 d p) = Cert.ReferenceIdeal.Read.val_main_v6 (F := Ideal) x0 x2 (ix2 p d))
    (hb : ∀ (d : Fin 2) (p : Fin 262144), b (ix2 d p) = Cert.ReferenceIdeal.Read.val_main_v13 (F := Ideal) x0 x3 (ix2 p d))
    (hp : ∀ p : Fin 262144, pij2 (ix2 0 p) = x1 (ix1 p))
    (hD : D (ix2 0 0) = Cert.ReferenceIdeal.Read.val_main_v38 (F := Ideal) x0 ix0) :
    Cert.KernelIdeal.Gen.k1_pay1 (F := Ideal) a b D pij2 (ix2 0 0)
      = Cert.ReferenceIdeal.Read.val_main_v45 (F := Ideal) x0 x1 x2 x3 ix0 := by
  refine (pay_eq a b D pij2).trans ?_
  refine Eq.trans ?_ (Cert.ReferenceIdeal.Read.val_main_v45_apply x0 x1 x2 x3 ix0).symm
  refine Eq.trans ?_ (congrArg (_ + ·) (sum_idx1 _).symm)
  rw [Cert.ReferenceIdeal.Read.val_main_cst_11_apply, Ideal.ofBits_def, Ideal.ofBits_zero_f32, zero_add]
  refine Finset.sum_congr rfl fun p _ => ?_
  rw [ref_elem x0 x1 x2 x3 p]
  exact term_congr (hp p) (Finset.sum_congr rfl fun d _ => by rw [ha d p, hb d p]) hD

end Cert.Bridge.Loss

end
-- ==== Proof.LibSumBlocks.lean ====
/-
  A finite sum cut into consecutive blocks.

  An index below `m * n` is `a * n + b` for exactly one block number `a < m` and one offset `b < n`, so a sum over
  `Fin (m * n)` in any commutative additive monoid is the sum, over the blocks, of each block's sum.  No order or
  finiteness of the summands is used: only that addition is associative and commutative, which holds on the extended
  reals too.
-/
import Mathlib.Algebra.BigOperators.Fin
import Mathlib.Logic.Equiv.Fin.Basic

open scoped BigOperators

namespace SumBlocks

/-- Offset `b` of block `a` lies below `m * n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The index `a * n + b` of a range of `N = m * n` indices. -/
def idx {m n N : ℕ} (hN : m * n = N) (a : Fin m) (b : Fin n) : Fin N := ⟨a.val * n + b.val, hN ▸ lt_mul a b⟩

@[simp] theorem idx_val {m n N : ℕ} (hN : m * n = N) (a : Fin m) (b : Fin n) : (idx hN a b).val = a.val * n + b.val := rfl

/-- A sum over `N = m * n` indices is the sum over the `m` blocks of the sum over each block's `n` offsets. -/
theorem sum_eq {β : Type*} [AddCommMonoid β] {m n N : ℕ} (hN : m * n = N) (f : Fin N → β) :
    ∑ k : Fin N, f k = ∑ a : Fin m, ∑ b : Fin n, f (idx hN a b) := by
  subst hN
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

end SumBlocks
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.LibLastAxisFolds.lean ====
/-
  Folds along the LAST axis of a rank-2 array at the ideal values, in the form a kernel's own text takes.

  A kernel's `vector.multi_reduction` carries two facts besides its operand: that its float type is one the
  operation is defined at, and that its accumulator is the operation's neutral word. A printed kernel states the
  first as the disjunction itself and the second as an equation between the two literal words. The lemmas here take
  the two facts in exactly that spelling, for any extents, so they rewrite a kernel's value as it stands:

  * `rowsum_fn` / `rowmax_fn`: the reduction, as a function of the row, is the sum over the row / the fold of `max`
    over the row from minus infinity. They contain no index, so `rw` can replace every reduction of a value before
    the value is read at an entry, also the ones that end up under a sum or a fold;
  * `rowsum_apply` / `rowmax_apply`: the same at a row given by its coordinate.

  With them: a one-column matrix `[a, 1]` laid out as one row `[1, a]` read at `(u, i)` is the column at `(i, 0)`, the
  counterpart of a vector laid out as a row; and square root, exponential and sigmoid of a vector read at an index.
-/
import Idealize.ShloMosaic.PureOps.Ideal.Laws
import Idealize.ShloMosaic.Lib.ValueIdx
import Idealize.ShloMosaic.Lib.Pipeline.Value

noncomputable section

namespace Cert.Lib.LastAxisFolds

open Idealize.ShloMosaic Idealize.ShloMosaic.ValueIdx

/-- A sum along the last axis from zero, read at its row: the sum over the row. -/
theorem rowsum_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => ?_
  exact congrArg src (funext fun d => Fin.ext (by match d with | ⟨0, _⟩ => rfl | ⟨1, _⟩ => rfl))

/-- A maximum along the last axis from minus infinity, read at its row: the fold of `max` over the row. -/
theorem rowmax_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun f => (Finset.univ : Finset (Fin b)).fold max (Ideal.ofBits .f32 0xFF800000#32) f) (funext fun k => ?_)
  exact congrArg src (funext fun d => Fin.ext (by match d with | ⟨0, _⟩ => rfl | ⟨1, _⟩ => rfl))

/-- The sum along the last axis as a function of the row. -/
theorem rowsum_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) :
    multiReduction .add [1] ⟨1, ![a]⟩ src 0x00000000#32 h hφ hacc = fun j => ∑ k : Fin b, src (ix2 (j 0) k) :=
  funext fun j => by
    rw [eq_ix1 j]
    exact rowsum_apply src h hφ hacc (j 0)

/-- The maximum along the last axis as a function of the row. -/
theorem rowmax_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) :
    multiReduction .maximumf [1] ⟨1, ![a]⟩ src 0xFF800000#32 h hφ hacc
      = fun j => (Finset.univ : Finset (Fin b)).fold max (Ideal.ofBits .f32 0xFF800000#32) (fun k => src (ix2 (j 0) k)) :=
  funext fun j => by
    rw [eq_ix1 j]
    exact rowmax_apply src h hφ hacc (j 0)

/-- A one-column matrix laid out as one row reads, at `(u, i)`, the column's entry in row `i`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.mul_one, Nat.add_zero, Nat.zero_add])

/-- The square root of a vector read at an index. -/
theorem sqrt_apply {s : Shape} {φ : FTy} (a : FVec Ideal s φ) (i : s.Idx) : sqrt a i = Ideal.sqrt (a i) := rfl
/-- The exponential of a vector read at an index. -/
theorem exp_apply {s : Shape} {φ : FTy} (a : FVec Ideal s φ) (i : s.Idx) : exp a i = Ideal.exp (a i) := rfl
/-- The sigmoid of a vector read at an index. -/
theorem logistic_apply {s : Shape} {φ : FTy} (a : FVec Ideal s φ) (i : s.Idx) : logistic a i = Ideal.logistic (a i) := rfl

end Cert.Lib.LastAxisFolds

end
-- ==== Proof.LibFirstAxisFolds.lean ====
/-
  Folds along the FIRST axis of a rank-2 array at the ideal values, in the form a kernel's own text takes.

  A kernel that keeps the long axis of a matrix on the leading coordinate takes a column's sum or maximum by a
  `vector.multi_reduction` over axis 0. Read at a column `p` the result is the sum over the rows `k` of the entries
  `(k, p)`, or the fold of `max` over them from minus infinity. The two facts a printed reduction carries besides its
  operand (its float type is one the operation is defined at; its accumulator is the operation's neutral word) are taken
  in the spelling a printed kernel gives them, for any extents, so the lemmas rewrite a kernel's value as it stands.
-/
import Idealize.ShloMosaic.PureOps.Ideal.Laws
import Idealize.ShloMosaic.Lib.ValueIdx
import Idealize.ShloMosaic.Lib.Pipeline.Value

noncomputable section

namespace Cert.Lib.FirstAxisFolds

open Idealize.ShloMosaic Idealize.ShloMosaic.ValueIdx

/-- A sum along the first axis from zero, read at its column: the sum down the column. -/
theorem colsum_apply {a b : ℕ} (src : FVec Ideal ⟨2, ![a, b]⟩ .f32)
    (h : (⟨2, ![a, b]⟩ : Shape).Reduces [0] ⟨1, ![b]⟩) (hφ : FTy.f32 = FTy.f32 ∨ FTy.f32 = FTy.bf16)
    (hacc : (0x00000000#32 : BitVec FTy.f32.bits) = 0x00000000#32) (p : Fin b) :
    multiReduction .add [0] ⟨1, ![b]⟩ src 0x00000000#32 h hφ hacc (ix1 p) = ∑ k : Fin a, src (ix2 k p) := by
  refine (Ideal.multiReduction_add_single src 0x00000000#32 h hφ hacc (ix1 p)).trans ?_
  refine Finset.sum_congr rfl fun k _ => ?_
  exact congrArg src (funext fun d => Fin.ext (by match d with | ⟨0, _⟩ => rfl | ⟨1, _⟩ => rfl))

/-- A maximum along the first axis from minus infinity, read at its column: the fold of `max` down the column. -/
theorem colmax_apply {a b : ℕ} (src : FVec Ideal ⟨2, ![a, b]⟩ .f32)
    (h : (⟨2, ![a, b]⟩ : Shape).Reduces [0] ⟨1, ![b]⟩) (hφ : FTy.f32 = FTy.f32 ∨ FTy.f32 = FTy.bf16)
    (hacc : (0xFF800000#32 : BitVec FTy.f32.bits) = 0xFF800000#32) (p : Fin b) :
    multiReduction .maximumf [0] ⟨1, ![b]⟩ src 0xFF800000#32 h hφ hacc (ix1 p)
      = (Finset.univ : Finset (Fin a)).fold max (⊥ : EReal) (fun k => src (ix2 k p)) := by
  refine (Ideal.multiReduction_maximumf_single src 0xFF800000#32 h hφ hacc (ix1 p)).trans ?_
  have hbot : (FloatOps.ofBits (F := Ideal) .f32 0xFF800000#32 : EReal) = ⊥ := by
    show Ideal.ofBits .f32 0xFF800000#32 = ⊥
    simp [Ideal.ofBits, Ideal.ieee]
  rw [hbot]
  refine congrArg (fun f => (Finset.univ : Finset (Fin a)).fold max (⊥ : EReal) f) (funext fun k => ?_)
  exact congrArg src (funext fun d => Fin.ext (by match d with | ⟨0, _⟩ => rfl | ⟨1, _⟩ => rfl))

end Cert.Lib.FirstAxisFolds

end
-- ==== Proof.DenomValue.lean ====
/-
  The denominator of the loss: the sum over ALL ordered pairs (a, b) of the 8192 points of

      1 / (1 + ((|x_a|² + |x_b|²) − 2 · (x_a0 · x_b0 + x_a1 · x_b1))).

  The tiled pass walks an 8 × 8 grid; at grid point n it holds row block n / 8 and row block n % 8 of the point array
  (1024 rows each), sums the summand over the 1024 × 1024 pairs of the tile (a sum along the columns, then a sum down
  the rows), and adds that partial sum to a resident entry that the first point starts from zero. The reference takes
  ONE sum over all 8192 × 8192 pairs. The two agree because a finite sum in a commutative additive monoid may be
  regrouped: a sum over 8192 indices is the sum over 8 blocks of 1024, two independent sums may be exchanged, and the
  64 grid points are the 8 × 8 pairs of blocks. Only associativity and commutativity of addition on the extended
  reals and the neutrality of zero are used; no entry needs to be finite.

  * `pairTerm`: the summand as a function of the two points' coordinates.
  * `tile_sum`: one tile's partial sum, for ANY two blocks, as the double sum of `pairTerm` over the tile's pairs.
  * `ref_term`: the reference's summand at the pair (a, b) is `pairTerm` of rows a and b.
  * `step_apply`, `zero_tile`: an accumulation step adds the partial sum to the resident entry; the start is zero.
  * `accumulated_eq_reference`: the resident entry after the last grid point is the reference's total.
-/
import proofs.«127132_j4990751998273_1_alg».proof.Proof.Gen.KernelIdeal.Skeleton
import proofs.«127132_j4990751998273_1_alg».proof.Proof.Gen.ReferenceIdeal.Read
import proofs.«127132_j4990751998273_1_alg».proof.Proof.LibSumBlocks
import proofs.«127132_j4990751998273_1_alg».proof.Proof.LibColumnLayout
import proofs.«127132_j4990751998273_1_alg».proof.Proof.LibLastAxisFolds
import proofs.«127132_j4990751998273_1_alg».proof.Proof.LibFirstAxisFolds
import Idealize.ShloMosaic.Lib.ValueLayout
import Idealize.ShloMosaic.Lib.ValueIdx
import Idealize.ShloMosaic.PureOps.Ideal.Laws

noncomputable section

namespace Cert.Bridge.Denom

open Idealize.ShloMosaic Idealize.ShloMosaic.ValueIdx

/-- The summand of one pair of points with coordinates `(p0, p1)` and `(q0, q1)`: one over one plus the squared distance,
    the squared distance written as the two squared norms less twice the inner product. The three literal words are
    `1.0`, `1.0` and `2.0`; they are the same words in both programs and are never evaluated. -/
def pairTerm (p0 p1 q0 q1 : EReal) : EReal :=
  Ideal.div (Ideal.ofBits .f32 0x3F800000#32)
    (Ideal.ofBits .f32 0x3F800000#32
      + (((p0 * p0 + p1 * p1) + (q0 * q0 + q1 * q1)) - Ideal.ofBits .f32 0x40000000#32 * (p0 * q0 + p1 * q1)))

/-- One tile's partial sum, for any two blocks of 1024 rows: the entry the tile contributes is the sum over the rows
    `r` of the first block and the rows `c` of the second of the summand of the pair. The value is read outermost
    operation first: the final cast and the sum down the rows, the cast to a column and the sum along the columns, then
    the summand at `(r, c)` operation by operation — each squared norm is a sum over the two coordinates kept as a
    column (for the second block transposed to a row) and spread over the tile, each product of coordinates is a
    column of the first block times a transposed column of the second. -/
theorem tile_sum (v5 v6 : Vec Ideal Cert.KernelIdeal.S1024x2 .f32) :
    Cert.KernelIdeal.Gen.k0_pay3 (F := Ideal) v5 v6 (ix2 (0 : Fin 1) (0 : Fin 1))
      = ∑ r : Fin 1024, ∑ c : Fin 1024,
          pairTerm (v5 (ix2 r (0 : Fin 2))) (v5 (ix2 r (1 : Fin 2))) (v6 (ix2 c (0 : Fin 2))) (v6 (ix2 c (1 : Fin 2))) := by
  unfold Cert.KernelIdeal.Gen.k0_pay3
  refine (shapeCast_a_1a_apply _ _ (0 : Fin 1) (0 : Fin 1)).trans ?_
  refine (Cert.Lib.FirstAxisFolds.colsum_apply _ _ _ _ (0 : Fin 1)).trans ?_
  refine Finset.sum_congr rfl fun r _ => ?_
  refine (ColumnLayout.shapeCast_a_a1_apply _ _ r (0 : Fin 1)).trans ?_
  refine (Cert.Lib.LastAxisFolds.rowsum_apply _ _ _ _ r).trans ?_
  refine Finset.sum_congr rfl fun c _ => ?_
  unfold pairTerm
  refine (divf_apply _ _ _).trans ?_
  refine congrArg₂ Ideal.div rfl ?_
  refine (addf_apply _ _ _).trans ?_
  refine congrArg₂ (· + ·) rfl ?_
  refine (subf_apply _ _ _).trans ?_
  refine congrArg₂ (· - ·) ?_ ?_
  · refine (addf_apply _ _ _).trans ?_
    refine congrArg₂ (· + ·) ?_ ?_
    · refine (ColumnLayout.broadcastTo_a1_ab_apply _ _ r c).trans ?_
      refine (ColumnLayout.shapeCast_a_a1_apply _ _ r (0 : Fin 1)).trans ?_
      refine (Cert.Lib.LastAxisFolds.rowsum_apply _ _ _ _ r).trans ?_
      exact Fin.sum_univ_two _
    · refine (broadcastTo_1b_ab_apply _ _ r c).trans ?_
      refine (transpose_ix2_apply _ _ (0 : Fin 1) c).trans ?_
      refine (ColumnLayout.shapeCast_a_a1_apply _ _ c (0 : Fin 1)).trans ?_
      refine (Cert.Lib.LastAxisFolds.rowsum_apply _ _ _ _ c).trans ?_
      exact Fin.sum_univ_two _
  · refine (mulf_apply _ _ _).trans ?_
    refine congrArg₂ (· * ·) rfl ?_
    refine (addf_apply _ _ _).trans ?_
    refine congrArg₂ (· + ·) ?_ ?_
    · refine (mulf_apply _ _ _).trans ?_
      refine congrArg₂ (· * ·) ?_ ?_
      · refine (ColumnLayout.broadcastTo_a1_ab_apply _ _ r c).trans ?_
        exact slice2_axis1_apply 0 _ _ r (0 : Fin 1) (0 : Fin 2) rfl
      · refine (broadcastTo_1b_ab_apply _ _ r c).trans ?_
        refine (transpose_ix2_apply _ _ (0 : Fin 1) c).trans ?_
        exact slice2_axis1_apply 0 _ _ c (0 : Fin 1) (0 : Fin 2) rfl
    · refine (mulf_apply _ _ _).trans ?_
      refine congrArg₂ (· * ·) ?_ ?_
      · refine (ColumnLayout.broadcastTo_a1_ab_apply _ _ r c).trans ?_
        exact slice2_axis1_apply 1 _ _ r (0 : Fin 1) (1 : Fin 2) rfl
      · refine (broadcastTo_1b_ab_apply _ _ r c).trans ?_
        refine (transpose_ix2_apply _ _ (0 : Fin 1) c).trans ?_
        exact slice2_axis1_apply 1 _ _ c (0 : Fin 1) (1 : Fin 2) rfl

open Cert.ReferenceIdeal.Read in
/-- The reference's summand at the pair `(a, b)`: its squared norms are sums over the two coordinates started from the
    zero word, spread along the rows and along the columns; its inner product is the contraction of the point array
    with its own transpose. Read at `(a, b)` they are the terms of `pairTerm` at rows `a` and `b`. -/
theorem ref_term (x0 : (⟨Cert.ReferenceIdeal.S8192x2, .f32⟩ : BufTy).Contents (Elt Ideal)) (a b : Fin 8192) :
    Cert.ReferenceIdeal.Read.val_main_v36 (F := Ideal) x0 (ix2 a b)
      = pairTerm (x0 (ix2 a (0 : Fin 2))) (x0 (ix2 a (1 : Fin 2))) (x0 (ix2 b (0 : Fin 2))) (x0 (ix2 b (1 : Fin 2))) := by
  have e1 : ∀ k : Fin 2, idx_main_v22 (idx_main_v23 (idx_main_v25 (ix2 a b))) k = ix2 a k := fun k =>
    funext fun d => Fin.ext (by match d with | ⟨0, _⟩ => rfl | ⟨1, _⟩ => rfl)
  have e2 : ∀ k : Fin 2, idx_main_v22 (idx_main_v24 (idx_main_v26 (ix2 a b))) k = ix2 b k := fun k =>
    funext fun d => Fin.ext (by match d with | ⟨0, _⟩ => rfl | ⟨1, _⟩ => rfl)
  have e3 : ∀ k : Fin 2, lidx_main_v29 (ix2 a b) k = ix2 a k := fun k =>
    funext fun d => Fin.ext (by match d with | ⟨0, _⟩ => rfl | ⟨1, _⟩ => rfl)
  have e4 : ∀ k : Fin 2, idx_main_v28 (ridx_main_v29 (ix2 a b) k) = ix2 b k := fun k =>
    funext fun d => Fin.ext (by match d with | ⟨0, _⟩ => rfl | ⟨1, _⟩ => rfl)
  rw [val_main_v36_apply, val_main_v35_apply, val_main_cst_8_apply, val_main_v34_apply, val_main_v33_apply,
    val_main_cst_7_apply, val_main_v32_apply, val_main_v27_apply, val_main_v25_apply, val_main_v23_apply,
    val_main_v22_apply, val_main_v26_apply, val_main_v24_apply, val_main_v22_apply, val_main_v31_apply,
    val_main_v30_apply, val_main_cst_6_apply, val_main_v29_apply, val_main_cst_5_apply]
  simp only [val_main_v21_apply, val_main_v28_apply, e1, e2, e3, e4, Fin.sum_univ_two, Ideal.hostDivf_def, Ideal.addf_def,
    Ideal.subf_def, Ideal.mulf_def, Ideal.ofBits_def, Ideal.ofBits_zero_f32, zero_add, pairTerm]

/-- The summand of two rows of the point array. -/
def G (x0 : (⟨Cert.ReferenceIdeal.S8192x2, .f32⟩ : BufTy).Contents (Elt Ideal)) (a b : Fin 8192) : EReal :=
  pairTerm (x0 (ix2 a (0 : Fin 2))) (x0 (ix2 a (1 : Fin 2))) (x0 (ix2 b (0 : Fin 2))) (x0 (ix2 b (1 : Fin 2)))

/-- Row `r` of block `i` of the 8192 rows cut into 8 blocks of 1024. -/
abbrev row (i : Fin 8) (r : Fin 1024) : Fin 8192 := SumBlocks.idx (show 8 * 1024 = 8192 from rfl) i r

/-- One accumulation step reads the resident entry plus the tile's partial sum. -/
theorem step_apply (v40 : FVec Ideal Cert.KernelIdeal.S1x1 .f32) (v41 : Vec Ideal Cert.KernelIdeal.S1x1 .f32) :
    Cert.KernelIdeal.Gen.k0_pay1 (F := Ideal) v40 v41 (ix2 (0 : Fin 1) (0 : Fin 1))
      = v41 (ix2 (0 : Fin 1) (0 : Fin 1)) + v40 (ix2 (0 : Fin 1) (0 : Fin 1)) := by
  unfold Cert.KernelIdeal.Gen.k0_pay1
  refine (addf_apply _ _ _).trans ?_
  refine congrArg₂ (· + ·) ?_ rfl
  exact congrFun (shapeCast_self v41 _) _

/-- The resident tile starts at zero. -/
theorem zero_tile : Cert.KernelIdeal.Gen.k0_pay2 (F := Ideal) (ix2 (0 : Fin 1) (0 : Fin 1)) = 0 := by
  unfold Cert.KernelIdeal.Gen.k0_pay2
  exact Ideal.ofBits_zero_f32

open Cert.ReferenceIdeal.Read in
/-- The resident entry after the 64 grid points is the reference's sum over all pairs. `b0 n` and `b1 n` are row
    blocks `n / 8` and `n % 8` of the point array; `acc n` is the resident tile after grid point `n`: zero plus the
    first tile's partial sum, then each later tile's partial sum added. Both sides are brought to the one sum over
    block pairs `(i, j)` and in-block rows `(r, c)`: the kernel's by induction over the points and by cutting the 64
    points into 8 × 8, the reference's by cutting each of its two row ranges into 8 blocks of 1024 and exchanging the
    two middle sums. -/
theorem accumulated_eq_reference
    (x0 : (⟨Cert.ReferenceIdeal.S8192x2, .f32⟩ : BufTy).Contents (Elt Ideal))
    (b0 b1 : ℕ → Vec Ideal Cert.KernelIdeal.S1024x2 .f32)
    (acc : ℕ → Vec Ideal Cert.KernelIdeal.S1x1 .f32)
    (hb0 : ∀ n (hn : n < 64) (r : Fin 1024) (d : Fin 2), b0 n (ix2 r d) = x0 (ix2 (⟨1024 * (n / 8) + r.val, by omega⟩ : Fin 8192) d))
    (hb1 : ∀ n (hn : n < 64) (r : Fin 1024) (d : Fin 2), b1 n (ix2 r d) = x0 (ix2 (⟨1024 * (n % 8) + r.val, by omega⟩ : Fin 8192) d))
    (h0 : acc 0 = Cert.KernelIdeal.Gen.k0_pay1 (F := Ideal) (Cert.KernelIdeal.Gen.k0_pay3 (F := Ideal) (b0 0) (b1 0)) (Cert.KernelIdeal.Gen.k0_pay2 (F := Ideal)))
    (hs : ∀ n, n + 1 < 64 → acc (n + 1) = Cert.KernelIdeal.Gen.k0_pay1 (F := Ideal) (Cert.KernelIdeal.Gen.k0_pay3 (F := Ideal) (b0 (n + 1)) (b1 (n + 1))) (acc n)) :
    acc 63 (ix2 0 0) = Cert.ReferenceIdeal.Read.val_main_v37 (F := Ideal) x0 ix0 := by
  -- the resident entry after point n is the sum of the partial sums of points 0..n
  have hacc : ∀ n, n < 64 → acc n (ix2 (0 : Fin 1) (0 : Fin 1))
      = ∑ k ∈ Finset.range (n + 1), Cert.KernelIdeal.Gen.k0_pay3 (F := Ideal) (b0 k) (b1 k) (ix2 (0 : Fin 1) (0 : Fin 1)) := by
    intro n
    induction n with
    | zero => intro _; rw [h0, step_apply, zero_tile, zero_add, Finset.sum_range_one]
    | succ n ih => intro hn; rw [hs n hn, step_apply, ih (by omega)]; exact (Finset.sum_range_succ _ _).symm
  -- the partial sum of grid point (i, j) in terms of the point array
  have htile : ∀ i j : Fin 8,
      Cert.KernelIdeal.Gen.k0_pay3 (F := Ideal) (b0 (i.val * 8 + j.val)) (b1 (i.val * 8 + j.val)) (ix2 (0 : Fin 1) (0 : Fin 1))
        = ∑ r : Fin 1024, ∑ c : Fin 1024, G x0 (row i r) (row j c) := by
    intro i j
    have hn : i.val * 8 + j.val < 64 := by omega
    rw [tile_sum]
    refine Finset.sum_congr rfl fun r _ => Finset.sum_congr rfl fun c _ => ?_
    rw [hb0 _ hn r 0, hb0 _ hn r 1, hb1 _ hn c 0, hb1 _ hn c 1]
    have ea : (⟨1024 * ((i.val * 8 + j.val) / 8) + r.val, by omega⟩ : Fin 8192) = row i r :=
      Fin.ext (by show 1024 * ((i.val * 8 + j.val) / 8) + r.val = i.val * 1024 + r.val; omega)
    have eb : (⟨1024 * ((i.val * 8 + j.val) % 8) + c.val, by omega⟩ : Fin 8192) = row j c :=
      Fin.ext (by show 1024 * ((i.val * 8 + j.val) % 8) + c.val = j.val * 1024 + c.val; omega)
    rw [ea, eb]
    rfl
  have hK : acc 63 (ix2 (0 : Fin 1) (0 : Fin 1))
      = ∑ i : Fin 8, ∑ j : Fin 8, ∑ r : Fin 1024, ∑ c : Fin 1024, G x0 (row i r) (row j c) := by
    rw [show acc 63 (ix2 (0 : Fin 1) (0 : Fin 1))
        = ∑ k ∈ Finset.range 64, Cert.KernelIdeal.Gen.k0_pay3 (F := Ideal) (b0 k) (b1 k) (ix2 (0 : Fin 1) (0 : Fin 1))
      from hacc 63 (by omega)]
    refine (Finset.sum_range _).trans ?_
    refine (SumBlocks.sum_eq (show 8 * 8 = 64 from rfl) _).trans ?_
    exact Finset.sum_congr rfl fun i _ => Finset.sum_congr rfl fun j _ => htile i j
  have hR : Cert.ReferenceIdeal.Read.val_main_v37 (F := Ideal) x0 ix0
      = ∑ i : Fin 8, ∑ j : Fin 8, ∑ r : Fin 1024, ∑ c : Fin 1024, G x0 (row i r) (row j c) := by
    rw [val_main_v37_apply, val_main_cst_9_apply, Ideal.ofBits_def, Ideal.ofBits_zero_f32, zero_add]
    refine (sum_idx2 _).trans ?_
    refine (SumBlocks.sum_eq (show 8 * 1024 = 8192 from rfl) _).trans ?_
    refine Finset.sum_congr rfl fun i _ => ?_
    refine (Finset.sum_congr rfl fun r _ => SumBlocks.sum_eq (show 8 * 1024 = 8192 from rfl) _).trans ?_
    refine Finset.sum_comm.trans ?_
    exact Finset.sum_congr rfl fun j _ => Finset.sum_congr rfl fun r _ => Finset.sum_congr rfl fun c _ => ref_term x0 _ _
  exact hK.trans hR.symm

end Cert.Bridge.Denom

end
-- ==== Proof.Bridge.lean ====
/-
  The kernel's result is the reference's.

  The run leaves the program's result buffer at the last contents.  Read backwards: it is the reshape of the
  second pass's [1, 1] result; that is the loss term of the pass's four arrays as the host lines left them (the two
  gathered, transposed row arrays; the probabilities as a row; the denominator); the denominator is the first
  pass's result less the pair count; and the first pass's result is the accumulation over the 64 grid points of
  the tile sums, which regroup to the reference's one sum over all pairs.  On the extended reals both programs
  are therefore the same function of the four argument arrays: the reference's own last stage.
-/
import proofs.«127132_j4990751998273_1_alg».proof.Proof.KI.Values
import proofs.«127132_j4990751998273_1_alg».proof.Proof.KI.Frame
import proofs.«127132_j4990751998273_1_alg».proof.Proof.LossValue
import proofs.«127132_j4990751998273_1_alg».proof.Proof.DenomValue
import Idealize.ShloMosaic.Lib.StableHlo.Run
import Idealize.ShloMosaic.Lib.ValueLayout
import Idealize.ShloMosaic.PureOps.Ideal.Laws

set_option maxRecDepth 16384

noncomputable section

namespace Cert.Bridge

open Cert.KernelIdeal Cert.KernelIdeal.Gen Cert.KernelIdeal.Frame
open Idealize.ShloMosaic Idealize.ShloMosaic.TcCoe Idealize.ShloMosaic.Tactic Idealize.ShloMosaic.StableHlo
open Idealize.ShloMosaic.ValueIdx
open Idealize.SL Idealize.SL.Sem

variable (m : (ℓ : Loc nD τ sig) → Buf (Elt Ideal) ℓ) (ρ : Dev nD → PrngReg)

/-! ## The first pass's result is the reference's sum over all pairs -/

set_option maxHeartbeats 1000000 in
theorem tile_total (c : Dev nD) :
    ((dat0 (V0 m ρ) c).arrAt 2 cfg0.N : S1x1.Idx → EReal) (ix2 0 0)
      = Cert.ReferenceIdeal.Read.val_main_v37 (F := Ideal) (m ((c : Thread nD τ).loc main_arg0)) ix0 := by
  rw [final0]
  have hN : cfg0.N = 64 := N_0
  have key := Cert.Bridge.Denom.accumulated_eq_reference (m ((c : Thread nD τ).loc main_arg0))
    (fun n => if h : n < cfg0.N then (iblk0 (V0 m ρ) c 0 ⟨n, h⟩ : Vec Ideal S1024x2 .f32) else fun _ => (0 : EReal))
    (fun n => if h : n < cfg0.N then (iblk0 (V0 m ρ) c 1 ⟨n, h⟩ : Vec Ideal S1024x2 .f32) else fun _ => (0 : EReal))
    (fun n => if h : n < cfg0.N then (outsAt0 (V0 m ρ) c n h : Vec Ideal S1x1 .f32) else fun _ => (0 : EReal))
    (fun n hn r d => by
      have h : n < cfg0.N := by rw [hN]; exact hn
      simp only [dif_pos h]
      exact iblk0_0_apply (V0 m ρ) c ⟨n, h⟩ r d _)
    (fun n hn r d => by
      have h : n < cfg0.N := by rw [hN]; exact hn
      simp only [dif_pos h]
      exact iblk0_1_apply (V0 m ρ) c ⟨n, h⟩ r d _)
    (by
      have h : 0 < cfg0.N := by rw [hN]; decide
      simp only [dif_pos h]
      exact out0_A_2_eq c _ _ _ _ _ _ _ _ _ _)
    (fun n hn => by
      have h' : n + 1 < cfg0.N := by rw [hN]; exact hn
      have h'' : n < cfg0.N := Nat.lt_of_succ_lt h'
      simp only [dif_pos h', dif_pos h'']
      exact out0_B_2_eq c _ _ _ _ _ _ _ _ _ _ _)
  simp only [dif_pos h63] at key
  exact key

/-! ## The arrays the second pass is entered with -/

/-- The first gathered, transposed row array, entry by entry. -/
theorem rowsA (c : Dev nD) (d : Fin 2) (p : Fin 262144) :
    (W2 m ρ c (Proc.devRef .tc main_v17) : S2x262144.Idx → EReal) (ix2 d p)
      = Cert.ReferenceIdeal.Read.val_main_v6 (F := Ideal) (m ((c : Thread nD τ).loc main_arg0)) (m ((c : Thread nD τ).loc main_arg2)) (ix2 p d) := by
  have e : (W2 m ρ c (Proc.devRef .tc main_v17) : S2x262144.Idx → EReal)
      = transpose S2x262144 [1, 0] (Cert.ReferenceIdeal.Read.val_main_v6 (F := Ideal) (m ((c : Thread nD τ).loc main_arg0)) (m ((c : Thread nD τ).loc main_arg2)))
          transposes_S262144x2_S2x262144_1_0 := by
    show StableHlo.after hostOps1 (W1 m ρ c) (Proc.devRef .tc main_v17) = _
    after_results
    rw [W1_of_ne m ρ c main_arg0 (by decide), W1_of_ne m ρ c main_arg2 (by decide)]
    rfl
  rw [e]
  exact transpose_ix2_apply _ _ d p

/-- The second gathered, transposed row array, entry by entry. -/
theorem rowsB (c : Dev nD) (d : Fin 2) (p : Fin 262144) :
    (W2 m ρ c (Proc.devRef .tc main_v18) : S2x262144.Idx → EReal) (ix2 d p)
      = Cert.ReferenceIdeal.Read.val_main_v13 (F := Ideal) (m ((c : Thread nD τ).loc main_arg0)) (m ((c : Thread nD τ).loc main_arg3)) (ix2 p d) := by
  have e : (W2 m ρ c (Proc.devRef .tc main_v18) : S2x262144.Idx → EReal)
      = transpose S2x262144 [1, 0] (Cert.ReferenceIdeal.Read.val_main_v13 (F := Ideal) (m ((c : Thread nD τ).loc main_arg0)) (m ((c : Thread nD τ).loc main_arg3)))
          transposes_S262144x2_S2x262144_1_0 := by
    show StableHlo.after hostOps1 (W1 m ρ c) (Proc.devRef .tc main_v18) = _
    after_results
    rw [W1_of_ne m ρ c main_arg0 (by decide), W1_of_ne m ρ c main_arg3 (by decide)]
    rfl
  rw [e]
  exact transpose_ix2_apply _ _ d p

/-- The probabilities as a row. -/
theorem probRow (c : Dev nD) (p : Fin 262144) :
    (W2 m ρ c (Proc.devRef .tc main_v19) : S1x262144.Idx → EReal) (ix2 0 p) = (m ((c : Thread nD τ).loc main_arg1) : S262144.Idx → EReal) (ix1 p) := by
  have e : (W2 m ρ c (Proc.devRef .tc main_v19) : S1x262144.Idx → EReal)
      = shapeCast S1x262144 (m ((c : Thread nD τ).loc main_arg1) : S262144.Idx → EReal) shapeCasts_S262144_S1x262144 := by
    show StableHlo.after hostOps1 (W1 m ρ c) (Proc.devRef .tc main_v19) = _
    after_results
    rw [W1_of_ne m ρ c main_arg1 (by decide)]
    rfl
  rw [e]
  exact shapeCast_a_1a_apply _ _ 0 p

/-- The denominator: the first pass's result less the pair count, which is the reference's. -/
theorem denom (c : Dev nD) :
    (W2 m ρ c (Proc.devRef .tc main_v2) : S1x1.Idx → EReal) (ix2 0 0)
      = Cert.ReferenceIdeal.Read.val_main_v38 (F := Ideal) (m ((c : Thread nD τ).loc main_arg0)) ix0 := by
  have e : (W2 m ρ c (Proc.devRef .tc main_v2) : S1x1.Idx → EReal)
      = subf (W1 m ρ c (Proc.devRef .tc main_v0) : S1x1.Idx → EReal) (broadcastInDim S1x1 ![] bcast_S_S1x1 (constant (F := Ideal) S_ .f32 0x48800000#32)) := by
    show StableHlo.after hostOps1 (W1 m ρ c) (Proc.devRef .tc main_v2) = _
    after_results
  rw [e]
  show FloatOps.subf ((W1 m ρ c (Proc.devRef .tc main_v0) : S1x1.Idx → EReal) (ix2 0 0))
      ((broadcastInDim S1x1 ![] bcast_S_S1x1 (constant (F := Ideal) S_ .f32 0x48800000#32)) (ix2 0 0))
    = FloatOps.subf (Cert.ReferenceIdeal.Read.val_main_v37 (F := Ideal) (m ((c : Thread nD τ).loc main_arg0)) ix0)
        (Cert.ReferenceIdeal.Read.val_main_cst_10 (F := Ideal) ix0)
  rw [broadcastInDim_apply _ bcast_S_S1x1 _ (ix2 0 0) ix0 (fun a => a.elim0), W1_v0, tile_total]
  rfl

/-! ## The second pass's result, and the program's -/

set_option maxHeartbeats 1000000 in
/-- The second pass's [1, 1] result is the reference's last stage. -/
theorem loss_tile (c : Dev nD) :
    (W3 m ρ c (Proc.devRef .tc main_v20) : S1x1.Idx → EReal) (ix2 0 0)
      = Cert.ReferenceIdeal.Read.val_main_v45 (F := Ideal) (m ((c : Thread nD τ).loc main_arg0)) (m ((c : Thread nD τ).loc main_arg1))
          (m ((c : Thread nD τ).loc main_arg2)) (m ((c : Thread nD τ).loc main_arg3)) ix0 := by
  have e : (W3 m ρ c (Proc.devRef .tc main_v20) : S1x1.Idx → EReal)
      = k1_pay1 (F := Ideal) (W2 m ρ c (Proc.devRef .tc main_v17) : S2x262144.Idx → EReal) (W2 m ρ c (Proc.devRef .tc main_v18) : S2x262144.Idx → EReal)
          (W2 m ρ c (Proc.devRef .tc main_v2) : S1x1.Idx → EReal) (W2 m ρ c (Proc.devRef .tc main_v19) : S1x262144.Idx → EReal) := by
    refine (W3_arr m ρ c 4).trans ((final1 (V2 m ρ) c).trans ?_)
    rw [out1_4_eq, iblk1_0_eq, iblk1_1_eq, iblk1_2_eq, iblk1_3_eq]
  rw [e]
  exact Cert.Bridge.Loss.loss_eq_reference _ _ _ _ _ _ _ _ (rowsA m ρ c) (rowsB m ρ c) (probRow m ρ c) (denom m ρ c)

/-- THE KERNEL'S RESULT: the program's result buffer ends at the reference's last stage of the launch arguments. -/
theorem kernel_value (c : Dev nD) :
    (W4 m ρ c (Proc.devRef .tc main_v21) : S_.Idx → EReal)
      = Cert.ReferenceIdeal.Read.val_main_v45 (F := Ideal) (m ((c : Thread nD τ).loc main_arg0)) (m ((c : Thread nD τ).loc main_arg1))
          (m ((c : Thread nD τ).loc main_arg2)) (m ((c : Thread nD τ).loc main_arg3)) := by
  have e : (W4 m ρ c (Proc.devRef .tc main_v21) : S_.Idx → EReal)
      = shapeCast S_ (W3 m ρ c (Proc.devRef .tc main_v20) : S1x1.Idx → EReal) shapeCasts_S1x1_S_ := by
    show StableHlo.after hostOps2 (W3 m ρ c) (Proc.devRef .tc main_v21) = _
    after_results
    rfl
  funext i
  rw [eq_ix0 i, e, ← loss_tile m ρ c]
  refine shapeCast_apply _ _ ix0 (ix2 0 0) ?_
  exact (Nat.lt_one_iff.mp (S1x1.rowMajor (ix2 0 0)).isLt).trans (Nat.lt_one_iff.mp (S_.rowMajor ix0).isLt).symm

end Cert.Bridge

end
-- ==== Proof.lean ====
/-
  A t-SNE loss kernel against its jnp reference, on the extended reals.

  The kernel computes, for 8192 points x in the plane and 262144 sampled pairs (i_p, j_p) with probabilities
  pij_p,  the sum over p of  pij_p * (log pij_p - log (num_p / denom)),  where
  num_p = 1 / (1 + |x_{i_p} - x_{j_p}|^2)  and  denom = (the sum over ALL pairs (a, b) of
  1 / (1 + (|x_a|^2 + |x_b|^2) - 2 <x_a, x_b>)) - 262144.  It does so in two passes: the first walks an 8 x 8
  grid of 1024 x 1024 tiles of the pair matrix, adding each tile's sum into a resident [1, 1] tile that the first
  grid point zeroes; the second, a single grid point, forms the loss from the gathered and transposed rows.
  The reference forms the whole 8192 x 8192 matrix and sums it at once, takes the inner products by a matrix
  product, and keeps the sampled rows as [P, 2].

  With floats read as extended reals and every operation exact, the two are one function of the four argument
  arrays: a sum over a 64-tile partition of the pairs is the sum over the pairs, a sum over two coordinates is
  the two products added, a transposed array read at (d, p) is the array at (p, d), and quotient and logarithm
  are the same functions in the kernel and on the host.  Only commutativity and associativity of addition on
  the extended reals are used, so the precondition (finite inputs) is never opened.

  The three frames: each program runs to the end without a fault and leaves its four argument arrays as
  launched.  For the kernel's program (at the word level and idealized alike) the run goes item by item
  through the first pass, the host lines, the second pass and the final reshape, every unscoped buffer held at
  known contents in between; the coordinate array, read through two windows of the first pass, is dealt to
  them in halves of its full share and gathered back.  Nothing was rewritten by the idealization, so the
  idealized kernel is the kernel's own text read on the extended reals.
-/
import proofs.«127132_j4990751998273_1_alg».proof.Defs
import proofs.«127132_j4990751998273_1_alg».proof.Proof.Gen.Kernel
import proofs.«127132_j4990751998273_1_alg».proof.Proof.Gen.KernelIdeal
import proofs.«127132_j4990751998273_1_alg».proof.Proof.Gen.ReferenceIdeal
import proofs.«127132_j4990751998273_1_alg».proof.Proof.Gen.Pre_finite_inputs
import proofs.«127132_j4990751998273_1_alg».proof.Proof.Gen.ReferenceIdeal.Run
import proofs.«127132_j4990751998273_1_alg».proof.Proof.Gen.ReferenceIdeal.Read
import proofs.«127132_j4990751998273_1_alg».proof.Proof.K.Frame
import proofs.«127132_j4990751998273_1_alg».proof.Proof.KI.Frame
import proofs.«127132_j4990751998273_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Frame.frame m ρ

/-- The idealized kernel runs and keeps its arguments. -/
theorem frame_kernelIdeal : Cert.frame_KernelIdeal := fun m ρ _ => Cert.KernelIdeal.Frame.frame m ρ

/-- The idealized reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals both programs end with the reference's last stage of the (agreeing) argument arrays. -/
theorem algebraic : Cert.algebraic_KernelIdeal_ReferenceIdeal := by
  intro m ρ m' ρ' _ hagree
  refine ⟨fun c => Cert.ReferenceIdeal.Read.val_main_v45 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c =>
      ⟨(h c _ (Cert.KernelIdeal.Frame.mem_uc Cert.KernelIdeal.main_v21 (by decide))).trans (Cert.Bridge.kernel_value m ρ c),
       (h c _ (Cert.KernelIdeal.Frame.mem_uc Cert.KernelIdeal.main_arg0 (by decide))).trans
         (Cert.KernelIdeal.Frame.W4_kept m ρ c Cert.KernelIdeal.main_arg0 (by decide) (by decide) (by decide) (by decide)),
       (h c _ (Cert.KernelIdeal.Frame.mem_uc Cert.KernelIdeal.main_arg1 (by decide))).trans
         (Cert.KernelIdeal.Frame.W4_kept m ρ c Cert.KernelIdeal.main_arg1 (by decide) (by decide) (by decide) (by decide)),
       (h c _ (Cert.KernelIdeal.Frame.mem_uc Cert.KernelIdeal.main_arg2 (by decide))).trans
         (Cert.KernelIdeal.Frame.W4_kept m ρ c Cert.KernelIdeal.main_arg2 (by decide) (by decide) (by decide) (by decide)),
       (h c _ (Cert.KernelIdeal.Frame.mem_uc Cert.KernelIdeal.main_arg3 (by decide))).trans
         (Cert.KernelIdeal.Frame.W4_kept m ρ c Cert.KernelIdeal.main_arg3 (by decide) (by decide) (by decide) (by decide))⟩)
      (Cert.KernelIdeal.Frame.run_all (F := Ideal) m ρ)
  · exact (θ_run Cert.ReferenceIdeal.defs _ _).mono (fun _ h c =>
      ⟨((h c).1.trans (Cert.ReferenceIdeal.Read.val_main_v45_eq _ _ _ _)).trans
          (by rw [(hagree c).1, (hagree c).2.1, (hagree c).2.2.1, (hagree c).2.2.2]),
        (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
